-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 2
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KFlashRuns.lean ====
/-
  The attention kernel's grid is 8 blocks of query rows by 8 blocks of key rows, met in row-major order, so
  point `t` works on query block `t / 8` and key block `t % 8`. The body has two conditionals on the key
  block: the first (`t % 8 = 0`) resets the running maximum, denominator and numerator and caches the
  queries' two-term split; the second (`t % 8 = 7`) divides numerator by denominator into the output block.
  This module holds what the three runs of the body (first key block, a middle one, the last) share: the two
  conditions in closed form over the grid, where the output window is idle and where it is written back, the
  blocks the two input windows hold, and names for the memrefs the body is called with.
-/
import proofs.«179613_j78254304133325_2_alg».proof.Proof.Gen.Kernel.Launch
import proofs.«179613_j78254304133325_2_alg».proof.Proof.Gen.Kernel.Skeleton
import proofs.«179613_j78254304133325_2_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- The first conditional's condition (the key block is the first), as the body computes it from the point. -/
abbrev cond0 (i : grid0.Coords) : Prop := (Scalar.cmpi .ne (Scalar.extui (Scalar.cmpi .eq (BitVec.ofNat 32 (i 1).val) 0#32)) 0#32) = 1#1
/-- It holds exactly at the points whose key block is 0. -/
theorem hcond0 : ∀ t : Fin cfg0.N, cond0 (grid0.coords t) ↔ t.val % 8 = 0 :=
  (by decide +kernel : ∀ t : Fin grid0.N, cond0 (grid0.coords t) ↔ t.val % 8 = 0)

/-- The second conditional's condition (the key block is the last). -/
abbrev cond1 (i : grid0.Coords) : Prop := k0_cond2 i = 1#1
/-- It holds exactly at the points whose key block is 7. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle, fetched and written back -/

theorem live0 : ∀ t : Fin cfg0.N, cfg0.idle 0 (grid0.coords t) = false := by decide +kernel
theorem live1 : ∀ t : Fin cfg0.N, cfg0.idle 1 (grid0.coords t) = false := by decide +kernel
/-- The output window is idle wherever the key block is not the last, -/
theorem idle2 : ∀ t : Fin cfg0.N, ¬cond1 (grid0.coords t) → cfg0.idle 2 (grid0.coords t) = true := by decide +kernel
/-- and is not written back there; -/
theorem noFlush2 : ∀ t : Fin cfg0.N, ¬cond1 (grid0.coords t) → (cfg0.win 2).flush t = false := by decide +kernel
/-- at the last key block it is live. -/
theorem live2 : ∀ t : Fin cfg0.N, cond1 (grid0.coords t) → cfg0.idle 2 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The five scratch buffers: running maximum, running denominator, running numerator, and the two terms of
    the queries' split. -/
abbrev sc5 : Memref sig .tc .vmem S1024x1 .f32 := Memref.whole cc0_scratch0
abbrev sc6 : Memref sig .tc .vmem S1024x1 .f32 := Memref.whole cc0_scratch1
abbrev sc7 : Memref sig .tc .vmem S1024x1024 .f32 := Memref.whole cc0_scratch2
abbrev sc8 : Memref sig .tc .vmem S1024x1024 .bf16 := Memref.whole cc0_scratch3
abbrev sc9 : Memref sig .tc .vmem S1024x1024 .bf16 := Memref.whole cc0_scratch4
/-- Views through which the contents of the output's staging buffer and of the scratch buffers are stated. -/
abbrev VO : View sig .tc .vmem S1024x1024 .f32 := (Memref.whole cc0_stg2_0 : Memref sig .tc .vmem S1024x1024 .f32).view
abbrev V5 : View sig .tc .vmem S1024x1 .f32 := sc5.view
abbrev V6 : View sig .tc .vmem S1024x1 .f32 := sc6.view
abbrev V7 : View sig .tc .vmem S1024x1024 .f32 := sc7.view
abbrev V8 : View sig .tc .vmem S1024x1024 .bf16 := sc8.view
abbrev V9 : View sig .tc .vmem S1024x1024 .bf16 := sc9.view

/-! ## The input windows' blocks -/

/-- The array both input windows read, as the region finds it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Flash

end
-- ==== Proof.KFlashRunA.lean ====
/-
  The body run once at the first key block (the reset is taken, the final division is not), on any whole staging and scratch memrefs: from the
  input blocks and whatever the scratch buffers hold it runs to the end, the inputs as they were, and each
  buffer it stores into holding the stores' payloads, recorded as the list of pieces written (last first).
-/
import proofs.«179613_j78254304133325_2_alg».proof.Proof.KFlashRuns

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first key block (the reset is taken, the final division is not). -/
noncomputable def kernelRun_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0 i) (hc1 : ¬cond1 i)
    (x2 : Vec F S1024x1024 .f32) (x3 : Vec F S1024x1024 .f32) :
    Σ' (L5 : List (View.Piece (Elt F) S1024x1 .f32)), Σ' (L6 : List (View.Piece (Elt F) S1024x1 .f32)), Σ' (L7 : List (View.Piece (Elt F) S1024x1024 .f32)), Σ' (L8 : List (View.Piece (Elt F) S1024x1024 .bf16)), { L9 : List (View.Piece (Elt F) S1024x1024 .bf16) //
      ∀ (xi4 : Vec F S1024x1024 .f32) (E : Set ℕ) (K : PUnit → sProp 𝕄),
        iprop(owns (c : Thread nD τ) arg2 fullShare x2 ∗ owns (c : Thread nD τ) arg3 fullShare x3 ∗ owns (c : Thread nD τ) arg4 fullShare xi4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, ?_, ?_, fun xi4 E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.Kernel.Flash

end
-- ==== Proof.KFlashRunB.lean ====
/-
  The body run once at a middle key block (neither conditional is taken), on any whole staging and scratch memrefs: from the
  input blocks and whatever the scratch buffers hold it runs to the end, the inputs as they were, and each
  buffer it stores into holding the stores' payloads, recorded as the list of pieces written (last first).
-/
import proofs.«179613_j78254304133325_2_alg».proof.Proof.KFlashRunA

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key block (neither conditional is taken). -/
noncomputable def kernelRun_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0 i) (hc1 : ¬cond1 i)
    (x2 : Vec F S1024x1024 .f32) (x3 : Vec F S1024x1024 .f32) (xs5 : Vec F S1024x1 .f32) (xs6 : Vec F S1024x1 .f32) (xs7 : Vec F S1024x1024 .f32) (xs8 : Vec F S1024x1024 .bf16) (xs9 : Vec F S1024x1024 .bf16) :
    Σ' (L5 : List (View.Piece (Elt F) S1024x1 .f32)), Σ' (L6 : List (View.Piece (Elt F) S1024x1 .f32)), { L7 : List (View.Piece (Elt F) S1024x1024 .f32) //
      ∀ (xi4 : Vec F S1024x1024 .f32) (E : Set ℕ) (K : PUnit → sProp 𝕄),
        iprop(owns (c : Thread nD τ) arg2 fullShare x2 ∗ owns (c : Thread nD τ) arg3 fullShare x3 ∗ owns (c : Thread nD τ) arg4 fullShare xi4 ∗ owns (c : Thread nD τ) arg5 fullShare xs5 ∗ owns (c : Thread nD τ) arg6 fullShare xs6 ∗ owns (c : Thread nD τ) arg7 fullShare xs7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs8 ∗ owns (c : Thread nD τ) arg9 fullShare xs9) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, fun xi4 E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    iexists _; isplitr; · ipureintro; exact harg9.read_unread _
    iexact H9

end Cert.Kernel.Flash

end
-- ==== Proof.KFlashRunC.lean ====
/-
  The body run once at the last key block (the reset is not taken, the final division is), on any whole staging and scratch memrefs: from the
  input blocks and whatever the scratch buffers hold it runs to the end, the inputs as they were, and each
  buffer it stores into holding the stores' payloads, recorded as the list of pieces written (last first).
-/
import proofs.«179613_j78254304133325_2_alg».proof.Proof.KFlashRunB

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last key block (the reset is not taken, the final division is). -/
noncomputable def kernelRun_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0 i) (hc1 : cond1 i)
    (x2 : Vec F S1024x1024 .f32) (x3 : Vec F S1024x1024 .f32) (xs5 : Vec F S1024x1 .f32) (xs6 : Vec F S1024x1 .f32) (xs7 : Vec F S1024x1024 .f32) (xs8 : Vec F S1024x1024 .bf16) (xs9 : Vec F S1024x1024 .bf16) :
    Σ' (L4 : List (View.Piece (Elt F) S1024x1024 .f32)), Σ' (L5 : List (View.Piece (Elt F) S1024x1 .f32)), Σ' (L6 : List (View.Piece (Elt F) S1024x1 .f32)), { L7 : List (View.Piece (Elt F) S1024x1024 .f32) //
      ∀  (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare xs5 ∗ owns (c : Thread nD τ) arg6 fullShare xs6 ∗ owns (c : Thread nD τ) arg7 fullShare xs7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs8 ∗ owns (c : Thread nD τ) arg9 fullShare xs9) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, ?_, fun  E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]
    · iexists _; isplitr; · ipureintro; exact harg8.read_unread _
      iexact H8
    iexists _; isplitr; · ipureintro; exact harg9.read_unread _
    iexact H9

end Cert.Kernel.Flash

end
-- ==== Proof.KFlashOuts.lean ====
/-
  What each of the body's three runs leaves behind, and the state after every grid point.
  A run records, for each buffer it stores into, the pieces written; read back, they are the buffer's contents
  (the stores cover the buffer). `stAt` threads the five scratch buffers through the grid in point order: at a
  first key block the run starts from nothing (it overwrites all five), at a later one from what the point
  before left; the output's staging buffer is stored into at a last key block only.
-/
import proofs.«179613_j78254304133325_2_alg».proof.Proof.KFlashRunC

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers the body writes hold after a point: the output's staging buffer and the five scratch
    buffers (running maximum, denominator, numerator, the queries' two terms). -/
structure Scr (F : FTy → Type) [FloatOps F] where
  o : Vec F S1024x1024 .f32
  s5 : Vec F S1024x1 .f32
  s6 : Vec F S1024x1 .f32
  s7 : Vec F S1024x1024 .f32
  s8 : Vec F S1024x1024 .bf16
  s9 : Vec F S1024x1024 .bf16

/-- The stores of run A into buffer 5 cover it. -/
theorem cover_A_5 (c : Dev nD) (t : Fin cfg0.N) (h0 : t.val % 8 = 0) (h1 : ¬t.val % 8 = 7) (y : S1024x1.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1 S1024x1.size (by sl_kernel_rfl) y

/-- What run A leaves in buffer 5: its pieces read back. -/
def res_A_5 (c : Dev nD) (t : Fin cfg0.N) (h0 : t.val % 8 = 0) (h1 : ¬t.val % 8 = 7) : Vec F S1024x1 .f32 :=
  V5.read (Elt F) (V5.writes (Elt F) V5.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1)

/-- The stores of run A into buffer 6 cover it. -/
theorem cover_A_6 (c : Dev nD) (t : Fin cfg0.N) (h0 : t.val % 8 = 0) (h1 : ¬t.val % 8 = 7) (y : S1024x1.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1 S1024x1.size (by sl_kernel_rfl) y

/-- What run A leaves in buffer 6: its pieces read back. -/
def res_A_6 (c : Dev nD) (t : Fin cfg0.N) (h0 : t.val % 8 = 0) (h1 : ¬t.val % 8 = 7) : Vec F S1024x1 .f32 :=
  V6.read (Elt F) (V6.writes (Elt F) V6.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1)

/-- The stores of run A into buffer 7 cover it. -/
theorem cover_A_7 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1 S1024x1024.size (by sl_kernel_rfl) y

/-- What run A leaves in buffer 7: its pieces read back. -/
def res_A_7 (c : Dev nD) (t : Fin cfg0.N) (h0 : t.val % 8 = 0) (h1 : ¬t.val % 8 = 7) : Vec F S1024x1024 .f32 :=
  V7.read (Elt F) (V7.writes (Elt F) V7.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1)

/-- The stores of run A into buffer 8 cover it. -/
theorem cover_A_8 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1 S1024x1024.size (by sl_kernel_rfl) y

/-- What run A leaves in buffer 8: its pieces read back. -/
def res_A_8 (c : Dev nD) (t : Fin cfg0.N) (h0 : t.val % 8 = 0) (h1 : ¬t.val % 8 = 7) : Vec F S1024x1024 .bf16 :=
  V8.read (Elt F) (V8.writes (Elt F) V8.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1)

/-- The stores of run A into buffer 9 cover it. -/
theorem cover_A_9 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1 S1024x1024.size (by sl_kernel_rfl) y

/-- What run A leaves in buffer 9: its pieces read back. -/
def res_A_9 (c : Dev nD) (t : Fin cfg0.N) (h0 : t.val % 8 = 0) (h1 : ¬t.val % 8 = 7) : Vec F S1024x1024 .bf16 :=
  V9.read (Elt F) (V9.writes (Elt F) V9.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1)

/-- The stores of run B into buffer 5 cover it. -/
theorem cover_B_5 (c : Dev nD) (t : Fin cfg0.N) (h0 : ¬t.val % 8 = 0) (h1 : ¬t.val % 8 = 7) (p : Scr F) (y : S1024x1.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1 S1024x1.size (by sl_kernel_rfl) y

/-- What run B leaves in buffer 5: its pieces read back. -/
def res_B_5 (c : Dev nD) (t : Fin cfg0.N) (h0 : ¬t.val % 8 = 0) (h1 : ¬t.val % 8 = 7) (p : Scr F) : Vec F S1024x1 .f32 :=
  V5.read (Elt F) (V5.writes (Elt F) V5.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1)

/-- The stores of run B into buffer 6 cover it. -/
theorem cover_B_6 (c : Dev nD) (t : Fin cfg0.N) (h0 : ¬t.val % 8 = 0) (h1 : ¬t.val % 8 = 7) (p : Scr F) (y : S1024x1.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1 S1024x1.size (by sl_kernel_rfl) y

/-- What run B leaves in buffer 6: its pieces read back. -/
def res_B_6 (c : Dev nD) (t : Fin cfg0.N) (h0 : ¬t.val % 8 = 0) (h1 : ¬t.val % 8 = 7) (p : Scr F) : Vec F S1024x1 .f32 :=
  V6.read (Elt F) (V6.writes (Elt F) V6.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1)

/-- The stores of run B into buffer 7 cover it. -/
theorem cover_B_7 (c : Dev nD) (t : Fin cfg0.N) (h0 : ¬t.val % 8 = 0) (h1 : ¬t.val % 8 = 7) (p : Scr F) (y : S1024x1024.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1 S1024x1024.size (by sl_kernel_rfl) y

/-- What run B leaves in buffer 7: its pieces read back. -/
def res_B_7 (c : Dev nD) (t : Fin cfg0.N) (h0 : ¬t.val % 8 = 0) (h1 : ¬t.val % 8 = 7) (p : Scr F) : Vec F S1024x1024 .f32 :=
  V7.read (Elt F) (V7.writes (Elt F) V7.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1)

/-- The stores of run C into buffer 4 cover it. -/
theorem cover_C_4 (c : Dev nD) (t : Fin cfg0.N) (h0 : ¬t.val % 8 = 0) (h1 : t.val % 8 = 7) (p : Scr F) (y : S1024x1024.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1 S1024x1024.size (by sl_kernel_rfl) y

/-- What run C leaves in buffer 4: its pieces read back. -/
def res_C_4 (c : Dev nD) (t : Fin cfg0.N) (h0 : ¬t.val % 8 = 0) (h1 : t.val % 8 = 7) (p : Scr F) : Vec F S1024x1024 .f32 :=
  VO.read (Elt F) (VO.writes (Elt F) VO.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1)

/-- The stores of run C into buffer 5 cover it. -/
theorem cover_C_5 (c : Dev nD) (t : Fin cfg0.N) (h0 : ¬t.val % 8 = 0) (h1 : t.val % 8 = 7) (p : Scr F) (y : S1024x1.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1 S1024x1.size (by sl_kernel_rfl) y

/-- What run C leaves in buffer 5: its pieces read back. -/
def res_C_5 (c : Dev nD) (t : Fin cfg0.N) (h0 : ¬t.val % 8 = 0) (h1 : t.val % 8 = 7) (p : Scr F) : Vec F S1024x1 .f32 :=
  V5.read (Elt F) (V5.writes (Elt F) V5.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1)

/-- The stores of run C into buffer 6 cover it. -/
theorem cover_C_6 (c : Dev nD) (t : Fin cfg0.N) (h0 : ¬t.val % 8 = 0) (h1 : t.val % 8 = 7) (p : Scr F) (y : S1024x1.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1 S1024x1.size (by sl_kernel_rfl) y

/-- What run C leaves in buffer 6: its pieces read back. -/
def res_C_6 (c : Dev nD) (t : Fin cfg0.N) (h0 : ¬t.val % 8 = 0) (h1 : t.val % 8 = 7) (p : Scr F) : Vec F S1024x1 .f32 :=
  V6.read (Elt F) (V6.writes (Elt F) V6.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1)

/-- The stores of run C into buffer 7 cover it. -/
theorem cover_C_7 (c : Dev nD) (t : Fin cfg0.N) (h0 : ¬t.val % 8 = 0) (h1 : t.val % 8 = 7) (p : Scr F) (y : S1024x1024.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1 S1024x1024.size (by sl_kernel_rfl) y

/-- What run C leaves in buffer 7: its pieces read back. -/
def res_C_7 (c : Dev nD) (t : Fin cfg0.N) (h0 : ¬t.val % 8 = 0) (h1 : t.val % 8 = 7) (p : Scr F) : Vec F S1024x1024 .f32 :=
  V7.read (Elt F) (V7.writes (Elt F) V7.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1)

/-- The state run A leaves (the output's buffer is not stored into: its entry here is never consulted). -/
def resA (c : Dev nD) (t : Fin cfg0.N) (h0 : t.val % 8 = 0) (h1 : ¬t.val % 8 = 7) : Scr F :=
  ⟨VO.read (Elt F) VO.junk, res_A_5 m c t h0 h1, res_A_6 m c t h0 h1, res_A_7 m c t h0 h1, res_A_8 m c t h0 h1, res_A_9 m c t h0 h1⟩
/-- The state run B leaves over the state `p` before it (the queries' two terms kept). -/
def resB (c : Dev nD) (t : Fin cfg0.N) (h0 : ¬t.val % 8 = 0) (h1 : ¬t.val % 8 = 7) (p : Scr F) : Scr F :=
  ⟨VO.read (Elt F) VO.junk, res_B_5 m c t h0 h1 p, res_B_6 m c t h0 h1 p, res_B_7 m c t h0 h1 p, p.s8, p.s9⟩
/-- The state run C leaves over the state `p` before it: as B, and the output's buffer stored. -/
def resC (c : Dev nD) (t : Fin cfg0.N) (h0 : ¬t.val % 8 = 0) (h1 : t.val % 8 = 7) (p : Scr F) : Scr F :=
  ⟨res_C_4 m c t h0 h1 p, res_C_5 m c t h0 h1 p, res_C_6 m c t h0 h1 p, res_C_7 m c t h0 h1 p, p.s8, p.s9⟩

/-- The state after point `n`, by recursion on the point: the run its key block selects, over the state the
    point before left. -/
def stAt (c : Dev nD) : (n : ℕ) → n < cfg0.N → Scr F
  | 0, hn => resA m c ⟨0, hn⟩ (Nat.zero_mod _) (show ¬(0 : ℕ) % 8 = 7 by decide)
  | n + 1, hn =>
    if h0 : (n + 1) % 8 = 0 then
      if h1 : (n + 1) % 8 = 7 then False.elim (by omega)
      else resA m c ⟨n + 1, hn⟩ h0 h1
    else
      if h1 : (n + 1) % 8 = 7 then resC m c ⟨n + 1, hn⟩ h0 h1 (stAt c n (Nat.lt_of_succ_lt hn))
      else resB m c ⟨n + 1, hn⟩ h0 h1 (stAt c n (Nat.lt_of_succ_lt hn))

theorem stAt_A (c : Dev nD) (t : Fin cfg0.N) (h0 : t.val % 8 = 0) (h1 : ¬t.val % 8 = 7) :
    stAt m c t.val t.isLt = resA m c t h0 h1 := by
  obtain ⟨n, hn⟩ := t
  cases n with
  | zero => exact rfl
  | succ n => exact (dif_pos h0).trans ((dif_neg h1).trans rfl)

theorem stAt_B (c : Dev nD) (t : Fin cfg0.N) (h0 : ¬t.val % 8 = 0) (h1 : ¬t.val % 8 = 7) :
    stAt m c t.val t.isLt = resB m c t h0 h1 (stAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_C (c : Dev nD) (t : Fin cfg0.N) (h0 : ¬t.val % 8 = 0) (h1 : t.val % 8 = 7) :
    stAt m c t.val t.isLt = resC m c t h0 h1 (stAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.Kernel.Flash

end
-- ==== Proof.KFlashFrame.lean ====
/-
  The kernel's run: every weakly fair execution of the program terminates without a fault, the argument
  array unchanged and the result array holding, block by block, what the body stored at each last key block.
  The invariant carried from point to point is the five scratch buffers at the state `stAt` names (before the
  first point: at anything). The two input windows read one array; each holds half of it, which is all a
  read needs. The body's obligation at a point is the run its key block selects.
-/
import proofs.«179613_j78254304133325_2_alg».proof.Proof.KFlashOuts

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- The scoped buffers the pipeline does not stage are the five scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) := by
  rw [scopedRest0_eq]; simp only [sc5, sc6, sc7, sc8, sc9, owns_whole]; try rfl

/-- The five scratch buffers at the state `s`. -/
def Scratch (c : Dev nD) (s : Scr F) : sProp 𝕄 :=
  iprop(owns (c : Thread nD τ) sc5 fullShare s.s5 ∗ owns (c : Thread nD τ) sc6 fullShare s.s6 ∗ owns (c : Thread nD τ) sc7 fullShare s.s7 ∗ owns (c : Thread nD τ) sc8 fullShare s.s8 ∗ owns (c : Thread nD τ) sc9 fullShare s.s9)

/-- The invariant before position `n`: before the first point the scratch buffers hold anything; afterwards
    what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => Scratch c (stAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = Scratch c (stAt m c n hn) := rfl

theorem PhiS_pos (c : Dev nD) (n : ℕ) (h : n ≤ cfg0.N) (hz : n ≠ 0) :
    PhiS m c n h = Scratch c (stAt m c (n - 1) (by omega)) := by
  cases n with
  | zero => exact absurd rfl hz
  | succ n => rfl

/-! ## The proof data -/

/-- The arrays as the region finds them; after the body each input's buffer at its block and the output's at
    the state's entry; the invariant `PhiS`; each input window holding half of the array they share, the
    output window all of its own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).o
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).o := by dsimp only [dats]

/-- Each input's current staging buffer holds its block at every point, fetched there or not: where it is not
    fetched the block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' buffers hold their blocks; the key block says which run applies; the
    invariant hands the run the scratch buffers at what the point before left (at anything before the first
    point, and at a first key block nothing of them is read before it is overwritten) and takes them back at
    this point's state; where the output's buffer is not stored into it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · by_cases h1 : t.val % 8 = 7
    · exfalso; omega
    · rw [Dat.leavesExact_idle (dats m 0 c) 2 t (idle2 t (fun h => h1 ((hcond1 t).mp h))) (noFlush2 t (fun h => h1 ((hcond1 t).mp h)))]
      rw [stAt_A m c t h0 h1]
      unfold Scratch resA res_A_5 res_A_6 res_A_7 res_A_8 res_A_9; (try dsimp only)
      by_cases hz : t.val = 0
      · rw [PhiS_castSucc m c t, PhiS_zero m c _ _ hz, scoped_eq]
        iintro ⟨⟨HS5, HS6, HS7, HS8, HS9⟩, Ho, ⟨%d0, H0⟩, ⟨%d1, H1⟩, ⟨%d2, H2⟩⟩
        iapply ((kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.2 _ Set.univ _)
        isplitl [H0]; · iexact H0
        isplitl [H1]; · iexact H1
        isplitl [H2]; · iexact H2
        isplitl [HS5]; · iexact HS5
        isplitl [HS6]; · iexact HS6
        isplitl [HS7]; · iexact HS7
        isplitl [HS8]; · iexact HS8
        isplitl [HS9]; · iexact HS9
        iintro ⟨H0, H1, H2, ⟨%e5, HS5⟩, ⟨%e6, HS6⟩, ⟨%e7, HS7⟩, ⟨%e8, HS8⟩, ⟨%e9, HS9⟩⟩
        isplitl [HS5 HS6 HS7 HS8 HS9]
        · isplitl [HS5]
          · unfold owns; iexists _; isplitr
            swap; · iexact HS5
            ipureintro; exact View.read_writes_of_cover _ _ _ _ _ (cover_A_5 m c t h0 h1)
          isplitl [HS6]
          · unfold owns; iexists _; isplitr
            swap; · iexact HS6
            ipureintro; exact View.read_writes_of_cover _ _ _ _ _ (cover_A_6 m c t h0 h1)
          isplitl [HS7]
          · unfold owns; iexists _; isplitr
            swap; · iexact HS7
            ipureintro; exact View.read_writes_of_cover _ _ _ _ _ (cover_A_7 m c t h0 h1)
          isplitl [HS8]
          · unfold owns; iexists _; isplitr
            swap; · iexact HS8
            ipureintro; exact View.read_writes_of_cover _ _ _ _ _ (cover_A_8 m c t h0 h1)
          unfold owns; iexists _; isplitr
          swap; · iexact HS9
          ipureintro; exact View.read_writes_of_cover _ _ _ _ _ (cover_A_9 m c t h0 h1)
        isplitl [Ho]; · iexact Ho
        isplitl [H0]; · iexact H0
        isplitl [H1]; · iexact H1
        iexists _; iexact H2
      · rw [PhiS_castSucc m c t, PhiS_pos m c _ _ hz]; unfold Scratch
        iintro ⟨⟨HS5, HS6, HS7, HS8, HS9⟩, Ho, ⟨%d0, H0⟩, ⟨%d1, H1⟩, ⟨%d2, H2⟩⟩
        iapply ((kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.2 _ Set.univ _)
        isplitl [H0]; · iexact H0
        isplitl [H1]; · iexact H1
        isplitl [H2]; · iexact H2
        isplitl [HS5]; · iexists _; iexact HS5
        isplitl [HS6]; · iexists _; iexact HS6
        isplitl [HS7]; · iexists _; iexact HS7
        isplitl [HS8]; · iexists _; iexact HS8
        isplitl [HS9]; · iexists _; iexact HS9
        iintro ⟨H0, H1, H2, ⟨%e5, HS5⟩, ⟨%e6, HS6⟩, ⟨%e7, HS7⟩, ⟨%e8, HS8⟩, ⟨%e9, HS9⟩⟩
        isplitl [HS5 HS6 HS7 HS8 HS9]
        · isplitl [HS5]
          · unfold owns; iexists _; isplitr
            swap; · iexact HS5
            ipureintro; exact View.read_writes_of_cover _ _ _ _ _ (cover_A_5 m c t h0 h1)
          isplitl [HS6]
          · unfold owns; iexists _; isplitr
            swap; · iexact HS6
            ipureintro; exact View.read_writes_of_cover _ _ _ _ _ (cover_A_6 m c t h0 h1)
          isplitl [HS7]
          · unfold owns; iexists _; isplitr
            swap; · iexact HS7
            ipureintro; exact View.read_writes_of_cover _ _ _ _ _ (cover_A_7 m c t h0 h1)
          isplitl [HS8]
          · unfold owns; iexists _; isplitr
            swap; · iexact HS8
            ipureintro; exact View.read_writes_of_cover _ _ _ _ _ (cover_A_8 m c t h0 h1)
          unfold owns; iexists _; isplitr
          swap; · iexact HS9
          ipureintro; exact View.read_writes_of_cover _ _ _ _ _ (cover_A_9 m c t h0 h1)
        isplitl [Ho]; · iexact Ho
        isplitl [H0]; · iexact H0
        isplitl [H1]; · iexact H1
        iexists _; iexact H2
  · by_cases h1 : t.val % 8 = 7
    · rw [show (dats m 0 c).leavesExact 2 t = owns (c : Thread nD τ) (ms2 t) fullShare ((dats m 0 c).after 2 t) from by
        unfold Dat.leavesExact; rw [live2 t ((hcond1 t).mpr h1)], after2]
      rw [stAt_C m c t h0 h1]
      unfold Scratch resC res_C_4 res_C_5 res_C_6 res_C_7; (try dsimp only)
      have hz : t.val ≠ 0 := fun h => h0 (by rw [h])
      rw [PhiS_castSucc m c t, PhiS_pos m c _ _ hz]; unfold Scratch
      iintro ⟨⟨HS5, HS6, HS7, HS8, HS9⟩, Ho, ⟨%d0, H0⟩, ⟨%d1, H1⟩, ⟨%d2, H2⟩⟩
      iapply ((kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) (stAt m c (t.val - 1) (Nat.lt_of_le_of_lt (Nat.sub_le _ _) t.isLt)).s5 (stAt m c (t.val - 1) (Nat.lt_of_le_of_lt (Nat.sub_le _ _) t.isLt)).s6 (stAt m c (t.val - 1) (Nat.lt_of_le_of_lt (Nat.sub_le _ _) t.isLt)).s7 (stAt m c (t.val - 1) (Nat.lt_of_le_of_lt (Nat.sub_le _ _) t.isLt)).s8 (stAt m c (t.val - 1) (Nat.lt_of_le_of_lt (Nat.sub_le _ _) t.isLt)).s9).2.2.2.2 Set.univ _)
      isplitl [H0]; · iexact H0
      isplitl [H1]; · iexact H1
      isplitl [H2]; · iexists _; iexact H2
      isplitl [HS5]; · iexact HS5
      isplitl [HS6]; · iexact HS6
      isplitl [HS7]; · iexact HS7
      isplitl [HS8]; · iexact HS8
      isplitl [HS9]; · iexact HS9
      iintro ⟨H0, H1, ⟨%e4, H2⟩, ⟨%e5, HS5⟩, ⟨%e6, HS6⟩, ⟨%e7, HS7⟩, HS8, HS9⟩
      isplitl [HS5 HS6 HS7 HS8 HS9]
      · isplitl [HS5]
        · unfold owns; iexists _; isplitr
          swap; · iexact HS5
          ipureintro; exact View.read_writes_of_cover _ _ _ _ _ (cover_C_5 m c t h0 h1 (stAt m c (t.val - 1) (Nat.lt_of_le_of_lt (Nat.sub_le _ _) t.isLt)))
        isplitl [HS6]
        · unfold owns; iexists _; isplitr
          swap; · iexact HS6
          ipureintro; exact View.read_writes_of_cover _ _ _ _ _ (cover_C_6 m c t h0 h1 (stAt m c (t.val - 1) (Nat.lt_of_le_of_lt (Nat.sub_le _ _) t.isLt)))
        isplitl [HS7]
        · unfold owns; iexists _; isplitr
          swap; · iexact HS7
          ipureintro; exact View.read_writes_of_cover _ _ _ _ _ (cover_C_7 m c t h0 h1 (stAt m c (t.val - 1) (Nat.lt_of_le_of_lt (Nat.sub_le _ _) t.isLt)))
        isplitl [HS8]; · iexact HS8
        iexact HS9
      isplitl [Ho]; · iexact Ho
      isplitl [H0]; · iexact H0
      isplitl [H1]; · iexact H1
      unfold owns; iexists _; isplitr
      swap; · iexact H2
      ipureintro; exact View.read_writes_of_cover _ _ _ _ _ (cover_C_4 m c t h0 h1 (stAt m c (t.val - 1) (Nat.lt_of_le_of_lt (Nat.sub_le _ _) t.isLt)))
    · rw [Dat.leavesExact_idle (dats m 0 c) 2 t (idle2 t (fun h => h1 ((hcond1 t).mp h))) (noFlush2 t (fun h => h1 ((hcond1 t).mp h)))]
      rw [stAt_B m c t h0 h1]
      unfold Scratch resB res_B_5 res_B_6 res_B_7; (try dsimp only)
      have hz : t.val ≠ 0 := fun h => h0 (by rw [h])
      rw [PhiS_castSucc m c t, PhiS_pos m c _ _ hz]; unfold Scratch
      iintro ⟨⟨HS5, HS6, HS7, HS8, HS9⟩, Ho, ⟨%d0, H0⟩, ⟨%d1, H1⟩, ⟨%d2, H2⟩⟩
      iapply ((kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) (stAt m c (t.val - 1) (Nat.lt_of_le_of_lt (Nat.sub_le _ _) t.isLt)).s5 (stAt m c (t.val - 1) (Nat.lt_of_le_of_lt (Nat.sub_le _ _) t.isLt)).s6 (stAt m c (t.val - 1) (Nat.lt_of_le_of_lt (Nat.sub_le _ _) t.isLt)).s7 (stAt m c (t.val - 1) (Nat.lt_of_le_of_lt (Nat.sub_le _ _) t.isLt)).s8 (stAt m c (t.val - 1) (Nat.lt_of_le_of_lt (Nat.sub_le _ _) t.isLt)).s9).2.2.2 _ Set.univ _)
      isplitl [H0]; · iexact H0
      isplitl [H1]; · iexact H1
      isplitl [H2]; · iexact H2
      isplitl [HS5]; · iexact HS5
      isplitl [HS6]; · iexact HS6
      isplitl [HS7]; · iexact HS7
      isplitl [HS8]; · iexact HS8
      isplitl [HS9]; · iexact HS9
      iintro ⟨H0, H1, H2, ⟨%e5, HS5⟩, ⟨%e6, HS6⟩, ⟨%e7, HS7⟩, HS8, HS9⟩
      isplitl [HS5 HS6 HS7 HS8 HS9]
      · isplitl [HS5]
        · unfold owns; iexists _; isplitr
          swap; · iexact HS5
          ipureintro; exact View.read_writes_of_cover _ _ _ _ _ (cover_B_5 m c t h0 h1 (stAt m c (t.val - 1) (Nat.lt_of_le_of_lt (Nat.sub_le _ _) t.isLt)))
        isplitl [HS6]
        · unfold owns; iexists _; isplitr
          swap; · iexact HS6
          ipureintro; exact View.read_writes_of_cover _ _ _ _ _ (cover_B_6 m c t h0 h1 (stAt m c (t.val - 1) (Nat.lt_of_le_of_lt (Nat.sub_le _ _) t.isLt)))
        isplitl [HS7]
        · unfold owns; iexists _; isplitr
          swap; · iexact HS7
          ipureintro; exact View.read_writes_of_cover _ _ _ _ _ (cover_B_7 m c t h0 h1 (stAt m c (t.val - 1) (Nat.lt_of_le_of_lt (Nat.sub_le _ _) t.isLt)))
        isplitl [HS8]; · iexact HS8
        iexact HS9
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Flash

end
-- ==== Proof.KFlashLaunch.lean ====
/-
  The launch of the attention kernel's one region. The two input windows read one array, so the array's
  full share is split in two halves, one per window; the output window holds its own array whole. Before the
  first point the scratch buffers hold anything, after the last what the last point left, which is forgotten.
  The run ends with every window's array at what the write-backs computed: the argument array as it was, the
  result array overwritten block by block.
-/
import proofs.«179613_j78254304133325_2_alg».proof.Proof.KFlashFrame

set_option maxRecDepth 16384
set_option synthInstance.maxSize 4096

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token per transfer. -/
def u₀ : UR sig nD τ := initOf (Pipeline.cells cfgs cellOf_inj) (Pipeline.launchToks cfgs cellOf_inj)

/-- The array the two input windows share is dealt to them in halves; the output's array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_W0, Idealize.SL.BI.bigSep_eq_bigSepL_of_eq [main_arg0, main_v0] (by decide) (by decide)]
  rw [(arr_whole0 0).set_eq_univ, (arr_whole0 2).set_eq_univ]
  show iprop(((c : Thread nD τ).loc main_arg0 ↦{fullShare} V m c main_arg0) ∗ ((c : Thread nD τ).loc main_v0 ↦{fullShare} V m c main_v0))
      ⊢ iprop(((c : Thread nD τ).loc main_arg0 ↦{fullShare.left} V m c main_arg0) ∗ ((c : Thread nD τ).loc main_arg0 ↦{fullShare.right} V m c main_arg0) ∗ ((c : Thread nD τ).loc main_v0 ↦{fullShare} V m c main_v0))
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-- What the launch hands the region, the scratch buffers at anything, is the invariant before the first point. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch buffers back at some contents. -/
theorem hout (c : Dev nD) : (dats m 0 c).Φ (Fin.last cfg0.N)
    ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  unfold Scratch
  iintro ⟨H5, H6, H7, H8, H9⟩
  isplitr; · iempintro
  isplitl [H5]; · iexists _; iexact H5
  isplitl [H6]; · iexists _; iexact H6
  isplitl [H7]; · iexists _; iexact H7
  isplitl [H8]; · iexists _; iexact H8
  iexists _; iexact H9

/-- What the run ends with: every window's array at what the write-backs computed. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any float values, from any memory with zero counters: every weakly fair execution of the program
    terminates without a fault, every window's array at what the write-backs computed. -/
theorem run_main : θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m)
    (hout := hout m)
    (QY := fun _ _ => True)
    (hY := fun c s' => by
      iintro ⟨-, -, HSI⟩; imodintro
      isplitr; · ipureintro; trivial
      iexact HSI)
    (hQ := fun _ h c w => (h c).1 w)

/-- The frame: the argument array ends as it began (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Flash

end
-- ==== Proof.FlashRuns.lean ====
/-
  The attention kernel's grid is 8 blocks of query rows by 8 blocks of key rows, met in row-major order, so
  point `t` works on query block `t / 8` and key block `t % 8`. The body has two conditionals on the key
  block: the first (`t % 8 = 0`) resets the running maximum, denominator and numerator and caches the
  queries' two-term split; the second (`t % 8 = 7`) divides numerator by denominator into the output block.
  This module holds what the three runs of the body (first key block, a middle one, the last) share: the two
  conditions in closed form over the grid, where the output window is idle and where it is written back, the
  blocks the two input windows hold, and names for the memrefs the body is called with.
-/
import proofs.«179613_j78254304133325_2_alg».proof.Proof.Gen.KernelIdeal.Launch
import proofs.«179613_j78254304133325_2_alg».proof.Proof.Gen.KernelIdeal.Skeleton
import proofs.«179613_j78254304133325_2_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- The first conditional's condition (the key block is the first), as the body computes it from the point. -/
abbrev cond0 (i : grid0.Coords) : Prop := (Scalar.cmpi .ne (Scalar.extui (Scalar.cmpi .eq (BitVec.ofNat 32 (i 1).val) 0#32)) 0#32) = 1#1
/-- It holds exactly at the points whose key block is 0. -/
theorem hcond0 : ∀ t : Fin cfg0.N, cond0 (grid0.coords t) ↔ t.val % 8 = 0 :=
  (by decide +kernel : ∀ t : Fin grid0.N, cond0 (grid0.coords t) ↔ t.val % 8 = 0)

/-- The second conditional's condition (the key block is the last). -/
abbrev cond1 (i : grid0.Coords) : Prop := k0_cond2 i = 1#1
/-- It holds exactly at the points whose key block is 7. -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle, fetched and written back -/

theorem live0 : ∀ t : Fin cfg0.N, cfg0.idle 0 (grid0.coords t) = false := by decide +kernel
theorem live1 : ∀ t : Fin cfg0.N, cfg0.idle 1 (grid0.coords t) = false := by decide +kernel
/-- The output window is idle wherever the key block is not the last, -/
theorem idle2 : ∀ t : Fin cfg0.N, ¬cond1 (grid0.coords t) → cfg0.idle 2 (grid0.coords t) = true := by decide +kernel
/-- and is not written back there; -/
theorem noFlush2 : ∀ t : Fin cfg0.N, ¬cond1 (grid0.coords t) → (cfg0.win 2).flush t = false := by decide +kernel
/-- at the last key block it is live. -/
theorem live2 : ∀ t : Fin cfg0.N, cond1 (grid0.coords t) → cfg0.idle 2 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The five scratch buffers: running maximum, running denominator, running numerator, and the two terms of
    the queries' split. -/
abbrev sc5 : Memref sig .tc .vmem S1024x1 .f32 := Memref.whole cc0_scratch0
abbrev sc6 : Memref sig .tc .vmem S1024x1 .f32 := Memref.whole cc0_scratch1
abbrev sc7 : Memref sig .tc .vmem S1024x1024 .f32 := Memref.whole cc0_scratch2
abbrev sc8 : Memref sig .tc .vmem S1024x1024 .bf16 := Memref.whole cc0_scratch3
abbrev sc9 : Memref sig .tc .vmem S1024x1024 .bf16 := Memref.whole cc0_scratch4
/-- Views through which the contents of the output's staging buffer and of the scratch buffers are stated. -/
abbrev VO : View sig .tc .vmem S1024x1024 .f32 := (Memref.whole cc0_stg2_0 : Memref sig .tc .vmem S1024x1024 .f32).view
abbrev V5 : View sig .tc .vmem S1024x1 .f32 := sc5.view
abbrev V6 : View sig .tc .vmem S1024x1 .f32 := sc6.view
abbrev V7 : View sig .tc .vmem S1024x1024 .f32 := sc7.view
abbrev V8 : View sig .tc .vmem S1024x1024 .bf16 := sc8.view
abbrev V9 : View sig .tc .vmem S1024x1024 .bf16 := sc9.view

/-! ## The input windows' blocks -/

/-- The array both input windows read, as the region finds it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Flash

end
-- ==== Proof.FlashRunA.lean ====
/-
  The body run once at the first key block (the reset is taken, the final division is not), on any whole staging and scratch memrefs: from the
  input blocks and whatever the scratch buffers hold it runs to the end, the inputs as they were, and each
  buffer it stores into holding the stores' payloads, recorded as the list of pieces written (last first).
-/
import proofs.«179613_j78254304133325_2_alg».proof.Proof.FlashRuns

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first key block (the reset is taken, the final division is not). -/
noncomputable def kernelRun_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0 i) (hc1 : ¬cond1 i)
    (x2 : Vec F S1024x1024 .f32) (x3 : Vec F S1024x1024 .f32) :
    Σ' (L5 : List (View.Piece (Elt F) S1024x1 .f32)), Σ' (L6 : List (View.Piece (Elt F) S1024x1 .f32)), Σ' (L7 : List (View.Piece (Elt F) S1024x1024 .f32)), Σ' (L8 : List (View.Piece (Elt F) S1024x1024 .bf16)), { L9 : List (View.Piece (Elt F) S1024x1024 .bf16) //
      ∀ (xi4 : Vec F S1024x1024 .f32) (E : Set ℕ) (K : PUnit → sProp 𝕄),
        iprop(owns (c : Thread nD τ) arg2 fullShare x2 ∗ owns (c : Thread nD τ) arg3 fullShare x3 ∗ owns (c : Thread nD τ) arg4 fullShare xi4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, ?_, ?_, fun xi4 E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Flash

end
-- ==== Proof.FlashRunB.lean ====
/-
  The body run once at a middle key block (neither conditional is taken), on any whole staging and scratch memrefs: from the
  input blocks and whatever the scratch buffers hold it runs to the end, the inputs as they were, and each
  buffer it stores into holding the stores' payloads, recorded as the list of pieces written (last first).
-/
import proofs.«179613_j78254304133325_2_alg».proof.Proof.FlashRunA

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key block (neither conditional is taken). -/
noncomputable def kernelRun_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0 i) (hc1 : ¬cond1 i)
    (x2 : Vec F S1024x1024 .f32) (x3 : Vec F S1024x1024 .f32) (xs5 : Vec F S1024x1 .f32) (xs6 : Vec F S1024x1 .f32) (xs7 : Vec F S1024x1024 .f32) (xs8 : Vec F S1024x1024 .bf16) (xs9 : Vec F S1024x1024 .bf16) :
    Σ' (L5 : List (View.Piece (Elt F) S1024x1 .f32)), Σ' (L6 : List (View.Piece (Elt F) S1024x1 .f32)), { L7 : List (View.Piece (Elt F) S1024x1024 .f32) //
      ∀ (xi4 : Vec F S1024x1024 .f32) (E : Set ℕ) (K : PUnit → sProp 𝕄),
        iprop(owns (c : Thread nD τ) arg2 fullShare x2 ∗ owns (c : Thread nD τ) arg3 fullShare x3 ∗ owns (c : Thread nD τ) arg4 fullShare xi4 ∗ owns (c : Thread nD τ) arg5 fullShare xs5 ∗ owns (c : Thread nD τ) arg6 fullShare xs6 ∗ owns (c : Thread nD τ) arg7 fullShare xs7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare xi4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs8 ∗ owns (c : Thread nD τ) arg9 fullShare xs9) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, fun xi4 E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]
    · iexists _; isplitr; · ipureintro; exact harg8.read_unread _
      iexact H8
    iexists _; isplitr; · ipureintro; exact harg9.read_unread _
    iexact H9

end Cert.KernelIdeal.Flash

end
-- ==== Proof.FlashRunC.lean ====
/-
  The body run once at the last key block (the reset is not taken, the final division is), on any whole staging and scratch memrefs: from the
  input blocks and whatever the scratch buffers hold it runs to the end, the inputs as they were, and each
  buffer it stores into holding the stores' payloads, recorded as the list of pieces written (last first).
-/
import proofs.«179613_j78254304133325_2_alg».proof.Proof.FlashRunB

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last key block (the reset is not taken, the final division is). -/
noncomputable def kernelRun_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0 i) (hc1 : cond1 i)
    (x2 : Vec F S1024x1024 .f32) (x3 : Vec F S1024x1024 .f32) (xs5 : Vec F S1024x1 .f32) (xs6 : Vec F S1024x1 .f32) (xs7 : Vec F S1024x1024 .f32) (xs8 : Vec F S1024x1024 .bf16) (xs9 : Vec F S1024x1024 .bf16) :
    Σ' (L4 : List (View.Piece (Elt F) S1024x1024 .f32)), Σ' (L5 : List (View.Piece (Elt F) S1024x1 .f32)), Σ' (L6 : List (View.Piece (Elt F) S1024x1 .f32)), { L7 : List (View.Piece (Elt F) S1024x1024 .f32) //
      ∀  (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare xs5 ∗ owns (c : Thread nD τ) arg6 fullShare xs6 ∗ owns (c : Thread nD τ) arg7 fullShare xs7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs8 ∗ owns (c : Thread nD τ) arg9 fullShare xs9) -∗ K ⟨⟩))
          ⊢ wp frame (wpE (defs₀ (F := F)) Variants.none c none) E (cc0__flash_kernel i arg2 harg2 arg3 harg3 arg4 harg4 arg5 harg5 arg6 harg6 arg7 harg7 arg8 harg8 arg9 harg9) K } := by
  refine ⟨?_, ?_, ?_, ?_, fun  E K => ?run⟩
  case run =>
    simp only [cc0__flash_kernel_eq_skeleton]; unfold cc0__flash_kernel_skel
    simp only [k0_part1_eq_skeleton]
    unfold owns
    iintro ⟨⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]
    · iexists _; isplitr; · ipureintro; exact harg8.read_unread _
      iexact H8
    iexists _; isplitr; · ipureintro; exact harg9.read_unread _
    iexact H9

end Cert.KernelIdeal.Flash

end
-- ==== Proof.FlashOuts.lean ====
/-
  What each of the body's three runs leaves behind, and the state after every grid point.
  A run records, for each buffer it stores into, the pieces written; read back, they are the buffer's contents
  (the stores cover the buffer). `stAt` threads the five scratch buffers through the grid in point order: at a
  first key block the run starts from nothing (it overwrites all five), at a later one from what the point
  before left; the output's staging buffer is stored into at a last key block only.
-/
import proofs.«179613_j78254304133325_2_alg».proof.Proof.FlashRunC

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers the body writes hold after a point: the output's staging buffer and the five scratch
    buffers (running maximum, denominator, numerator, the queries' two terms). -/
structure Scr (F : FTy → Type) [FloatOps F] where
  o : Vec F S1024x1024 .f32
  s5 : Vec F S1024x1 .f32
  s6 : Vec F S1024x1 .f32
  s7 : Vec F S1024x1024 .f32
  s8 : Vec F S1024x1024 .bf16
  s9 : Vec F S1024x1024 .bf16

/-- The stores of run A into buffer 5 cover it. -/
theorem cover_A_5 (c : Dev nD) (t : Fin cfg0.N) (h0 : t.val % 8 = 0) (h1 : ¬t.val % 8 = 7) (y : S1024x1.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1 S1024x1.size (by sl_kernel_rfl) y

/-- What run A leaves in buffer 5: its pieces read back. -/
def res_A_5 (c : Dev nD) (t : Fin cfg0.N) (h0 : t.val % 8 = 0) (h1 : ¬t.val % 8 = 7) : Vec F S1024x1 .f32 :=
  V5.read (Elt F) (V5.writes (Elt F) V5.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).1)

/-- The stores of run A into buffer 6 cover it. -/
theorem cover_A_6 (c : Dev nD) (t : Fin cfg0.N) (h0 : t.val % 8 = 0) (h1 : ¬t.val % 8 = 7) (y : S1024x1.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1 S1024x1.size (by sl_kernel_rfl) y

/-- What run A leaves in buffer 6: its pieces read back. -/
def res_A_6 (c : Dev nD) (t : Fin cfg0.N) (h0 : t.val % 8 = 0) (h1 : ¬t.val % 8 = 7) : Vec F S1024x1 .f32 :=
  V6.read (Elt F) (V6.writes (Elt F) V6.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.1)

/-- The stores of run A into buffer 7 cover it. -/
theorem cover_A_7 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1 S1024x1024.size (by sl_kernel_rfl) y

/-- What run A leaves in buffer 7: its pieces read back. -/
def res_A_7 (c : Dev nD) (t : Fin cfg0.N) (h0 : t.val % 8 = 0) (h1 : ¬t.val % 8 = 7) : Vec F S1024x1024 .f32 :=
  V7.read (Elt F) (V7.writes (Elt F) V7.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.1)

/-- The stores of run A into buffer 8 cover it. -/
theorem cover_A_8 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1 S1024x1024.size (by sl_kernel_rfl) y

/-- What run A leaves in buffer 8: its pieces read back. -/
def res_A_8 (c : Dev nD) (t : Fin cfg0.N) (h0 : t.val % 8 = 0) (h1 : ¬t.val % 8 = 7) : Vec F S1024x1024 .bf16 :=
  V8.read (Elt F) (V8.writes (Elt F) V8.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.1)

/-- The stores of run A into buffer 9 cover it. -/
theorem cover_A_9 (c : Dev nD) (t : Fin cfg0.N) (h0 : t.val % 8 = 0) (h1 : ¬t.val % 8 = 7) (y : S1024x1024.Idx) :
    ∃ pc ∈ (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1, y ∈ pc.1.set :=
  View.cover_of_tiledL (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1 S1024x1024.size (by sl_kernel_rfl) y

/-- What run A leaves in buffer 9: its pieces read back. -/
def res_A_9 (c : Dev nD) (t : Fin cfg0.N) (h0 : t.val % 8 = 0) (h1 : ¬t.val % 8 = 7) : Vec F S1024x1024 .bf16 :=
  V9.read (Elt F) (V9.writes (Elt F) V9.junk (kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.1)

/-- The stores of run B into buffer 5 cover it. -/
theorem cover_B_5 (c : Dev nD) (t : Fin cfg0.N) (h0 : ¬t.val % 8 = 0) (h1 : ¬t.val % 8 = 7) (p : Scr F) (y : S1024x1.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1 S1024x1.size (by sl_kernel_rfl) y

/-- What run B leaves in buffer 5: its pieces read back. -/
def res_B_5 (c : Dev nD) (t : Fin cfg0.N) (h0 : ¬t.val % 8 = 0) (h1 : ¬t.val % 8 = 7) (p : Scr F) : Vec F S1024x1 .f32 :=
  V5.read (Elt F) (V5.writes (Elt F) V5.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).1)

/-- The stores of run B into buffer 6 cover it. -/
theorem cover_B_6 (c : Dev nD) (t : Fin cfg0.N) (h0 : ¬t.val % 8 = 0) (h1 : ¬t.val % 8 = 7) (p : Scr F) (y : S1024x1.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1 S1024x1.size (by sl_kernel_rfl) y

/-- What run B leaves in buffer 6: its pieces read back. -/
def res_B_6 (c : Dev nD) (t : Fin cfg0.N) (h0 : ¬t.val % 8 = 0) (h1 : ¬t.val % 8 = 7) (p : Scr F) : Vec F S1024x1 .f32 :=
  V6.read (Elt F) (V6.writes (Elt F) V6.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.1)

/-- The stores of run B into buffer 7 cover it. -/
theorem cover_B_7 (c : Dev nD) (t : Fin cfg0.N) (h0 : ¬t.val % 8 = 0) (h1 : ¬t.val % 8 = 7) (p : Scr F) (y : S1024x1024.Idx) :
    ∃ pc ∈ (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1, y ∈ pc.1.set :=
  View.cover_of_tiledL (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1 S1024x1024.size (by sl_kernel_rfl) y

/-- What run B leaves in buffer 7: its pieces read back. -/
def res_B_7 (c : Dev nD) (t : Fin cfg0.N) (h0 : ¬t.val % 8 = 0) (h1 : ¬t.val % 8 = 7) (p : Scr F) : Vec F S1024x1024 .f32 :=
  V7.read (Elt F) (V7.writes (Elt F) V7.junk (kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) p.s5 p.s6 p.s7 p.s8 p.s9).2.2.1)

/-- The stores of run C into buffer 4 cover it. -/
theorem cover_C_4 (c : Dev nD) (t : Fin cfg0.N) (h0 : ¬t.val % 8 = 0) (h1 : t.val % 8 = 7) (p : Scr F) (y : S1024x1024.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1 S1024x1024.size (by sl_kernel_rfl) y

/-- What run C leaves in buffer 4: its pieces read back. -/
def res_C_4 (c : Dev nD) (t : Fin cfg0.N) (h0 : ¬t.val % 8 = 0) (h1 : t.val % 8 = 7) (p : Scr F) : Vec F S1024x1024 .f32 :=
  VO.read (Elt F) (VO.writes (Elt F) VO.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).1)

/-- The stores of run C into buffer 5 cover it. -/
theorem cover_C_5 (c : Dev nD) (t : Fin cfg0.N) (h0 : ¬t.val % 8 = 0) (h1 : t.val % 8 = 7) (p : Scr F) (y : S1024x1.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1 S1024x1.size (by sl_kernel_rfl) y

/-- What run C leaves in buffer 5: its pieces read back. -/
def res_C_5 (c : Dev nD) (t : Fin cfg0.N) (h0 : ¬t.val % 8 = 0) (h1 : t.val % 8 = 7) (p : Scr F) : Vec F S1024x1 .f32 :=
  V5.read (Elt F) (V5.writes (Elt F) V5.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.1)

/-- The stores of run C into buffer 6 cover it. -/
theorem cover_C_6 (c : Dev nD) (t : Fin cfg0.N) (h0 : ¬t.val % 8 = 0) (h1 : t.val % 8 = 7) (p : Scr F) (y : S1024x1.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1 S1024x1.size (by sl_kernel_rfl) y

/-- What run C leaves in buffer 6: its pieces read back. -/
def res_C_6 (c : Dev nD) (t : Fin cfg0.N) (h0 : ¬t.val % 8 = 0) (h1 : t.val % 8 = 7) (p : Scr F) : Vec F S1024x1 .f32 :=
  V6.read (Elt F) (V6.writes (Elt F) V6.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.1)

/-- The stores of run C into buffer 7 cover it. -/
theorem cover_C_7 (c : Dev nD) (t : Fin cfg0.N) (h0 : ¬t.val % 8 = 0) (h1 : t.val % 8 = 7) (p : Scr F) (y : S1024x1024.Idx) :
    ∃ pc ∈ (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1, y ∈ pc.1.set :=
  View.cover_of_tiledL (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1 S1024x1024.size (by sl_kernel_rfl) y

/-- What run C leaves in buffer 7: its pieces read back. -/
def res_C_7 (c : Dev nD) (t : Fin cfg0.N) (h0 : ¬t.val % 8 = 0) (h1 : t.val % 8 = 7) (p : Scr F) : Vec F S1024x1024 .f32 :=
  V7.read (Elt F) (V7.writes (Elt F) V7.junk (kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) p.s5 p.s6 p.s7 p.s8 p.s9).2.2.2.1)

/-- The state run A leaves (the output's buffer is not stored into: its entry here is never consulted). -/
def resA (c : Dev nD) (t : Fin cfg0.N) (h0 : t.val % 8 = 0) (h1 : ¬t.val % 8 = 7) : Scr F :=
  ⟨VO.read (Elt F) VO.junk, res_A_5 m c t h0 h1, res_A_6 m c t h0 h1, res_A_7 m c t h0 h1, res_A_8 m c t h0 h1, res_A_9 m c t h0 h1⟩
/-- The state run B leaves over the state `p` before it (the queries' two terms kept). -/
def resB (c : Dev nD) (t : Fin cfg0.N) (h0 : ¬t.val % 8 = 0) (h1 : ¬t.val % 8 = 7) (p : Scr F) : Scr F :=
  ⟨VO.read (Elt F) VO.junk, res_B_5 m c t h0 h1 p, res_B_6 m c t h0 h1 p, res_B_7 m c t h0 h1 p, p.s8, p.s9⟩
/-- The state run C leaves over the state `p` before it: as B, and the output's buffer stored. -/
def resC (c : Dev nD) (t : Fin cfg0.N) (h0 : ¬t.val % 8 = 0) (h1 : t.val % 8 = 7) (p : Scr F) : Scr F :=
  ⟨res_C_4 m c t h0 h1 p, res_C_5 m c t h0 h1 p, res_C_6 m c t h0 h1 p, res_C_7 m c t h0 h1 p, p.s8, p.s9⟩

/-- The state after point `n`, by recursion on the point: the run its key block selects, over the state the
    point before left. -/
def stAt (c : Dev nD) : (n : ℕ) → n < cfg0.N → Scr F
  | 0, hn => resA m c ⟨0, hn⟩ (Nat.zero_mod _) (show ¬(0 : ℕ) % 8 = 7 by decide)
  | n + 1, hn =>
    if h0 : (n + 1) % 8 = 0 then
      if h1 : (n + 1) % 8 = 7 then False.elim (by omega)
      else resA m c ⟨n + 1, hn⟩ h0 h1
    else
      if h1 : (n + 1) % 8 = 7 then resC m c ⟨n + 1, hn⟩ h0 h1 (stAt c n (Nat.lt_of_succ_lt hn))
      else resB m c ⟨n + 1, hn⟩ h0 h1 (stAt c n (Nat.lt_of_succ_lt hn))

theorem stAt_A (c : Dev nD) (t : Fin cfg0.N) (h0 : t.val % 8 = 0) (h1 : ¬t.val % 8 = 7) :
    stAt m c t.val t.isLt = resA m c t h0 h1 := by
  obtain ⟨n, hn⟩ := t
  cases n with
  | zero => exact rfl
  | succ n => exact (dif_pos h0).trans ((dif_neg h1).trans rfl)

theorem stAt_B (c : Dev nD) (t : Fin cfg0.N) (h0 : ¬t.val % 8 = 0) (h1 : ¬t.val % 8 = 7) :
    stAt m c t.val t.isLt = resB m c t h0 h1 (stAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_C (c : Dev nD) (t : Fin cfg0.N) (h0 : ¬t.val % 8 = 0) (h1 : t.val % 8 = 7) :
    stAt m c t.val t.isLt = resC m c t h0 h1 (stAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.KernelIdeal.Flash

end
-- ==== Proof.FlashFrame.lean ====
/-
  The kernel's run: every weakly fair execution of the program terminates without a fault, the argument
  array unchanged and the result array holding, block by block, what the body stored at each last key block.
  The invariant carried from point to point is the five scratch buffers at the state `stAt` names (before the
  first point: at anything). The two input windows read one array; each holds half of it, which is all a
  read needs. The body's obligation at a point is the run its key block selects.
-/
import proofs.«179613_j78254304133325_2_alg».proof.Proof.FlashOuts

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- The scoped buffers the pipeline does not stage are the five scratch buffers, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) := by
  rw [scopedRest0_eq]; simp only [sc5, sc6, sc7, sc8, sc9, owns_whole]; try rfl

/-- The five scratch buffers at the state `s`. -/
def Scratch (c : Dev nD) (s : Scr F) : sProp 𝕄 :=
  iprop(owns (c : Thread nD τ) sc5 fullShare s.s5 ∗ owns (c : Thread nD τ) sc6 fullShare s.s6 ∗ owns (c : Thread nD τ) sc7 fullShare s.s7 ∗ owns (c : Thread nD τ) sc8 fullShare s.s8 ∗ owns (c : Thread nD τ) sc9 fullShare s.s9)

/-- The invariant before position `n`: before the first point the scratch buffers hold anything; afterwards
    what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => Scratch c (stAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = Scratch c (stAt m c n hn) := rfl

theorem PhiS_pos (c : Dev nD) (n : ℕ) (h : n ≤ cfg0.N) (hz : n ≠ 0) :
    PhiS m c n h = Scratch c (stAt m c (n - 1) (by omega)) := by
  cases n with
  | zero => exact absurd rfl hz
  | succ n => rfl

/-! ## The proof data -/

/-- The arrays as the region finds them; after the body each input's buffer at its block and the output's at
    the state's entry; the invariant `PhiS`; each input window holding half of the array they share, the
    output window all of its own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).o
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val t.isLt).o := by dsimp only [dats]

/-- Each input's current staging buffer holds its block at every point, fetched there or not: where it is not
    fetched the block index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the inputs' buffers hold their blocks; the key block says which run applies; the
    invariant hands the run the scratch buffers at what the point before left (at anything before the first
    point, and at a first key block nothing of them is read before it is overwritten) and takes them back at
    this point's state; where the output's buffer is not stored into it is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · by_cases h1 : t.val % 8 = 7
    · exfalso; omega
    · rw [Dat.leavesExact_idle (dats m 0 c) 2 t (idle2 t (fun h => h1 ((hcond1 t).mp h))) (noFlush2 t (fun h => h1 ((hcond1 t).mp h)))]
      rw [stAt_A m c t h0 h1]
      unfold Scratch resA res_A_5 res_A_6 res_A_7 res_A_8 res_A_9; (try dsimp only)
      by_cases hz : t.val = 0
      · rw [PhiS_castSucc m c t, PhiS_zero m c _ _ hz, scoped_eq]
        iintro ⟨⟨HS5, HS6, HS7, HS8, HS9⟩, Ho, ⟨%d0, H0⟩, ⟨%d1, H1⟩, ⟨%d2, H2⟩⟩
        iapply ((kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.2 _ Set.univ _)
        isplitl [H0]; · iexact H0
        isplitl [H1]; · iexact H1
        isplitl [H2]; · iexact H2
        isplitl [HS5]; · iexact HS5
        isplitl [HS6]; · iexact HS6
        isplitl [HS7]; · iexact HS7
        isplitl [HS8]; · iexact HS8
        isplitl [HS9]; · iexact HS9
        iintro ⟨H0, H1, H2, ⟨%e5, HS5⟩, ⟨%e6, HS6⟩, ⟨%e7, HS7⟩, ⟨%e8, HS8⟩, ⟨%e9, HS9⟩⟩
        isplitl [HS5 HS6 HS7 HS8 HS9]
        · isplitl [HS5]
          · unfold owns; iexists _; isplitr
            swap; · iexact HS5
            ipureintro; exact View.read_writes_of_cover _ _ _ _ _ (cover_A_5 m c t h0 h1)
          isplitl [HS6]
          · unfold owns; iexists _; isplitr
            swap; · iexact HS6
            ipureintro; exact View.read_writes_of_cover _ _ _ _ _ (cover_A_6 m c t h0 h1)
          isplitl [HS7]
          · unfold owns; iexists _; isplitr
            swap; · iexact HS7
            ipureintro; exact View.read_writes_of_cover _ _ _ _ _ (cover_A_7 m c t h0 h1)
          isplitl [HS8]
          · unfold owns; iexists _; isplitr
            swap; · iexact HS8
            ipureintro; exact View.read_writes_of_cover _ _ _ _ _ (cover_A_8 m c t h0 h1)
          unfold owns; iexists _; isplitr
          swap; · iexact HS9
          ipureintro; exact View.read_writes_of_cover _ _ _ _ _ (cover_A_9 m c t h0 h1)
        isplitl [Ho]; · iexact Ho
        isplitl [H0]; · iexact H0
        isplitl [H1]; · iexact H1
        iexists _; iexact H2
      · rw [PhiS_castSucc m c t, PhiS_pos m c _ _ hz]; unfold Scratch
        iintro ⟨⟨HS5, HS6, HS7, HS8, HS9⟩, Ho, ⟨%d0, H0⟩, ⟨%d1, H1⟩, ⟨%d2, H2⟩⟩
        iapply ((kernelRun_A c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) ((hcond0 t).mpr h0) (fun h => h1 ((hcond1 t).mp h)) (iblk m c 0 t) (iblk m c 1 t)).2.2.2.2.2 _ Set.univ _)
        isplitl [H0]; · iexact H0
        isplitl [H1]; · iexact H1
        isplitl [H2]; · iexact H2
        isplitl [HS5]; · iexists _; iexact HS5
        isplitl [HS6]; · iexists _; iexact HS6
        isplitl [HS7]; · iexists _; iexact HS7
        isplitl [HS8]; · iexists _; iexact HS8
        isplitl [HS9]; · iexists _; iexact HS9
        iintro ⟨H0, H1, H2, ⟨%e5, HS5⟩, ⟨%e6, HS6⟩, ⟨%e7, HS7⟩, ⟨%e8, HS8⟩, ⟨%e9, HS9⟩⟩
        isplitl [HS5 HS6 HS7 HS8 HS9]
        · isplitl [HS5]
          · unfold owns; iexists _; isplitr
            swap; · iexact HS5
            ipureintro; exact View.read_writes_of_cover _ _ _ _ _ (cover_A_5 m c t h0 h1)
          isplitl [HS6]
          · unfold owns; iexists _; isplitr
            swap; · iexact HS6
            ipureintro; exact View.read_writes_of_cover _ _ _ _ _ (cover_A_6 m c t h0 h1)
          isplitl [HS7]
          · unfold owns; iexists _; isplitr
            swap; · iexact HS7
            ipureintro; exact View.read_writes_of_cover _ _ _ _ _ (cover_A_7 m c t h0 h1)
          isplitl [HS8]
          · unfold owns; iexists _; isplitr
            swap; · iexact HS8
            ipureintro; exact View.read_writes_of_cover _ _ _ _ _ (cover_A_8 m c t h0 h1)
          unfold owns; iexists _; isplitr
          swap; · iexact HS9
          ipureintro; exact View.read_writes_of_cover _ _ _ _ _ (cover_A_9 m c t h0 h1)
        isplitl [Ho]; · iexact Ho
        isplitl [H0]; · iexact H0
        isplitl [H1]; · iexact H1
        iexists _; iexact H2
  · by_cases h1 : t.val % 8 = 7
    · rw [show (dats m 0 c).leavesExact 2 t = owns (c : Thread nD τ) (ms2 t) fullShare ((dats m 0 c).after 2 t) from by
        unfold Dat.leavesExact; rw [live2 t ((hcond1 t).mpr h1)], after2]
      rw [stAt_C m c t h0 h1]
      unfold Scratch resC res_C_4 res_C_5 res_C_6 res_C_7; (try dsimp only)
      have hz : t.val ≠ 0 := fun h => h0 (by rw [h])
      rw [PhiS_castSucc m c t, PhiS_pos m c _ _ hz]; unfold Scratch
      iintro ⟨⟨HS5, HS6, HS7, HS8, HS9⟩, Ho, ⟨%d0, H0⟩, ⟨%d1, H1⟩, ⟨%d2, H2⟩⟩
      iapply ((kernelRun_C c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) ((hcond1 t).mpr h1) (iblk m c 0 t) (iblk m c 1 t) (stAt m c (t.val - 1) (Nat.lt_of_le_of_lt (Nat.sub_le _ _) t.isLt)).s5 (stAt m c (t.val - 1) (Nat.lt_of_le_of_lt (Nat.sub_le _ _) t.isLt)).s6 (stAt m c (t.val - 1) (Nat.lt_of_le_of_lt (Nat.sub_le _ _) t.isLt)).s7 (stAt m c (t.val - 1) (Nat.lt_of_le_of_lt (Nat.sub_le _ _) t.isLt)).s8 (stAt m c (t.val - 1) (Nat.lt_of_le_of_lt (Nat.sub_le _ _) t.isLt)).s9).2.2.2.2 Set.univ _)
      isplitl [H0]; · iexact H0
      isplitl [H1]; · iexact H1
      isplitl [H2]; · iexists _; iexact H2
      isplitl [HS5]; · iexact HS5
      isplitl [HS6]; · iexact HS6
      isplitl [HS7]; · iexact HS7
      isplitl [HS8]; · iexact HS8
      isplitl [HS9]; · iexact HS9
      iintro ⟨H0, H1, ⟨%e4, H2⟩, ⟨%e5, HS5⟩, ⟨%e6, HS6⟩, ⟨%e7, HS7⟩, HS8, HS9⟩
      isplitl [HS5 HS6 HS7 HS8 HS9]
      · isplitl [HS5]
        · unfold owns; iexists _; isplitr
          swap; · iexact HS5
          ipureintro; exact View.read_writes_of_cover _ _ _ _ _ (cover_C_5 m c t h0 h1 (stAt m c (t.val - 1) (Nat.lt_of_le_of_lt (Nat.sub_le _ _) t.isLt)))
        isplitl [HS6]
        · unfold owns; iexists _; isplitr
          swap; · iexact HS6
          ipureintro; exact View.read_writes_of_cover _ _ _ _ _ (cover_C_6 m c t h0 h1 (stAt m c (t.val - 1) (Nat.lt_of_le_of_lt (Nat.sub_le _ _) t.isLt)))
        isplitl [HS7]
        · unfold owns; iexists _; isplitr
          swap; · iexact HS7
          ipureintro; exact View.read_writes_of_cover _ _ _ _ _ (cover_C_7 m c t h0 h1 (stAt m c (t.val - 1) (Nat.lt_of_le_of_lt (Nat.sub_le _ _) t.isLt)))
        isplitl [HS8]; · iexact HS8
        iexact HS9
      isplitl [Ho]; · iexact Ho
      isplitl [H0]; · iexact H0
      isplitl [H1]; · iexact H1
      unfold owns; iexists _; isplitr
      swap; · iexact H2
      ipureintro; exact View.read_writes_of_cover _ _ _ _ _ (cover_C_4 m c t h0 h1 (stAt m c (t.val - 1) (Nat.lt_of_le_of_lt (Nat.sub_le _ _) t.isLt)))
    · rw [Dat.leavesExact_idle (dats m 0 c) 2 t (idle2 t (fun h => h1 ((hcond1 t).mp h))) (noFlush2 t (fun h => h1 ((hcond1 t).mp h)))]
      rw [stAt_B m c t h0 h1]
      unfold Scratch resB res_B_5 res_B_6 res_B_7; (try dsimp only)
      have hz : t.val ≠ 0 := fun h => h0 (by rw [h])
      rw [PhiS_castSucc m c t, PhiS_pos m c _ _ hz]; unfold Scratch
      iintro ⟨⟨HS5, HS6, HS7, HS8, HS9⟩, Ho, ⟨%d0, H0⟩, ⟨%d1, H1⟩, ⟨%d2, H2⟩⟩
      iapply ((kernelRun_B c (grid0.coords t) (ms0 t) (hs0 t) (ms1 t) (hs1 t) (ms2 t) (hs2 t) sc5 (Memref.isWhole_whole _) sc6 (Memref.isWhole_whole _) sc7 (Memref.isWhole_whole _) sc8 (Memref.isWhole_whole _) sc9 (Memref.isWhole_whole _) (fun h => h0 ((hcond0 t).mp h)) (fun h => h1 ((hcond1 t).mp h)) (iblk m c 0 t) (iblk m c 1 t) (stAt m c (t.val - 1) (Nat.lt_of_le_of_lt (Nat.sub_le _ _) t.isLt)).s5 (stAt m c (t.val - 1) (Nat.lt_of_le_of_lt (Nat.sub_le _ _) t.isLt)).s6 (stAt m c (t.val - 1) (Nat.lt_of_le_of_lt (Nat.sub_le _ _) t.isLt)).s7 (stAt m c (t.val - 1) (Nat.lt_of_le_of_lt (Nat.sub_le _ _) t.isLt)).s8 (stAt m c (t.val - 1) (Nat.lt_of_le_of_lt (Nat.sub_le _ _) t.isLt)).s9).2.2.2 _ Set.univ _)
      isplitl [H0]; · iexact H0
      isplitl [H1]; · iexact H1
      isplitl [H2]; · iexact H2
      isplitl [HS5]; · iexact HS5
      isplitl [HS6]; · iexact HS6
      isplitl [HS7]; · iexact HS7
      isplitl [HS8]; · iexact HS8
      isplitl [HS9]; · iexact HS9
      iintro ⟨H0, H1, H2, ⟨%e5, HS5⟩, ⟨%e6, HS6⟩, ⟨%e7, HS7⟩, HS8, HS9⟩
      isplitl [HS5 HS6 HS7 HS8 HS9]
      · isplitl [HS5]
        · unfold owns; iexists _; isplitr
          swap; · iexact HS5
          ipureintro; exact View.read_writes_of_cover _ _ _ _ _ (cover_B_5 m c t h0 h1 (stAt m c (t.val - 1) (Nat.lt_of_le_of_lt (Nat.sub_le _ _) t.isLt)))
        isplitl [HS6]
        · unfold owns; iexists _; isplitr
          swap; · iexact HS6
          ipureintro; exact View.read_writes_of_cover _ _ _ _ _ (cover_B_6 m c t h0 h1 (stAt m c (t.val - 1) (Nat.lt_of_le_of_lt (Nat.sub_le _ _) t.isLt)))
        isplitl [HS7]
        · unfold owns; iexists _; isplitr
          swap; · iexact HS7
          ipureintro; exact View.read_writes_of_cover _ _ _ _ _ (cover_B_7 m c t h0 h1 (stAt m c (t.val - 1) (Nat.lt_of_le_of_lt (Nat.sub_le _ _) t.isLt)))
        isplitl [HS8]; · iexact HS8
        iexact HS9
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Flash

end
-- ==== Proof.FlashLaunch.lean ====
/-
  The launch of the attention kernel's one region. The two input windows read one array, so the array's
  full share is split in two halves, one per window; the output window holds its own array whole. Before the
  first point the scratch buffers hold anything, after the last what the last point left, which is forgotten.
  The run ends with every window's array at what the write-backs computed: the argument array as it was, the
  result array overwritten block by block.
-/
import proofs.«179613_j78254304133325_2_alg».proof.Proof.FlashFrame

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token per transfer. -/
def u₀ : UR sig nD τ := initOf (Pipeline.cells cfgs cellOf_inj) (Pipeline.launchToks cfgs cellOf_inj)

/-- The array the two input windows share is dealt to them in halves; the output's array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_W0, Idealize.SL.BI.bigSep_eq_bigSepL_of_eq [main_arg0, main_v0] (by decide) (by decide)]
  rw [(arr_whole0 0).set_eq_univ, (arr_whole0 2).set_eq_univ]
  show iprop(((c : Thread nD τ).loc main_arg0 ↦{fullShare} V m c main_arg0) ∗ ((c : Thread nD τ).loc main_v0 ↦{fullShare} V m c main_v0))
      ⊢ iprop(((c : Thread nD τ).loc main_arg0 ↦{fullShare.left} V m c main_arg0) ∗ ((c : Thread nD τ).loc main_arg0 ↦{fullShare.right} V m c main_arg0) ∗ ((c : Thread nD τ).loc main_v0 ↦{fullShare} V m c main_v0))
  iintro ⟨Ha, Hv⟩
  ihave Hs := (pointsTo_share (PosShare.mem_left_op_right fullShare)).1 $$ Ha
  icases Hs with ⟨Hl, Hr⟩
  isplitl [Hl]; · iexact Hl
  isplitl [Hr]; · iexact Hr
  iexact Hv

/-- What the launch hands the region, the scratch buffers at anything, is the invariant before the first point. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch buffers back at some contents. -/
theorem hout (c : Dev nD) : (dats m 0 c).Φ (Fin.last cfg0.N)
    ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  unfold Scratch
  iintro ⟨H5, H6, H7, H8, H9⟩
  isplitr; · iempintro
  isplitl [H5]; · iexists _; iexact H5
  isplitl [H6]; · iexists _; iexact H6
  isplitl [H7]; · iexists _; iexact H7
  isplitl [H8]; · iexists _; iexact H8
  iexists _; iexact H9

/-- What the run ends with: every window's array at what the write-backs computed. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- For any float values, from any memory with zero counters: every weakly fair execution of the program
    terminates without a fault, every window's array at what the write-backs computed. -/
theorem run_main : θ_run defs (onTc (τ := τ) (main (F := F))) ⟨m, fun _ => 0, ρ⟩ (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m)
    (hout := hout m)
    (QY := fun _ _ => True)
    (hY := fun c s' => by
      iintro ⟨-, -, HSI⟩; imodintro
      isplitr; · ipureintro; trivial
      iexact HSI)
    (hQ := fun _ h c w => (h c).1 w)

/-- The frame: the argument array ends as it began (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Flash

end
-- ==== Proof.FlashGeom.lean ====
/-
  The geometry of the attention kernel's three windows over its 8 by 8 grid. Point `t` has query block
  `t / 8` and key block `t % 8`; each block is 1024 whole rows of an array of 8192 rows and 1024 columns.
  The first input window holds the query block's rows, the second the key block's rows, and the output
  window the query block's rows of the result, written back when the key block is the last. So an entry
  `(r, d)` of an input block is entry `(1024 * block + r, d)` of the array, and the eight write-backs, one
  per query block, tile the result array: if each writes its block of one whole-array function, the array
  ends as that function.
-/
import proofs.«179613_j78254304133325_2_alg».proof.Proof.FlashRuns
import Idealize.ShloMosaic.Lib.ValueIdx
import Idealize.ShloMosaic.Lib.Pipeline.Value

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! ## The index maps over the grid -/

/-- The first input window's block index at point `t`: the query block, column block 0. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- The second input window's block index at point `t`: the key block, column block 0. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The output window's block index at point `t`: the query block, column block 0. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-! ## The input blocks, entry by entry -/

/-- Entry `(r, d)` of the query block at point `t` is entry `(1024 * (t / 8) + r, d)` of the input array. -/
theorem iblk0_apply (c : Dev nD) (t : Fin cfg0.N) (r d : Fin 1024) :
    iblk m c 0 t (ValueIdx.ix2 r d)
      = m ((c : Thread nD τ).loc main_arg0)
          (ValueIdx.ix2 (⟨(t.val / 8) * 1024 + r.val, by have := t.isLt; have : cfg0.N = 64 := N_0; omega⟩ : Fin 8192) d) := by
  obtain ⟨e0, e1⟩ := idx0 t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * r.val = (t.val / 8) * 1024 + r.val; rw [e0]; omega
  | ⟨1, _⟩ => show win0_0.index t (1 : Fin 2) * 1024 + 1 * d.val = d.val; rw [e1]; omega

/-- Entry `(r, d)` of the key block at point `t` is entry `(1024 * (t % 8) + r, d)` of the input array. -/
theorem iblk1_apply (c : Dev nD) (t : Fin cfg0.N) (r d : Fin 1024) :
    iblk m c 1 t (ValueIdx.ix2 r d)
      = m ((c : Thread nD τ).loc main_arg0)
          (ValueIdx.ix2 (⟨(t.val % 8) * 1024 + r.val, by omega⟩ : Fin 8192) d) := by
  obtain ⟨e0, e1⟩ := idx1 t
  unfold iblk
  rw [View.read_apply]
  show m ((c : Thread nD τ).loc main_arg0) _ = m ((c : Thread nD τ).loc main_arg0) _
  congr 1
  funext a
  apply Fin.ext
  match a with
  | ⟨0, _⟩ => show win0_1.index t (0 : Fin 2) * 1024 + 1 * r.val = (t.val % 8) * 1024 + r.val; rw [e0]; omega
  | ⟨1, _⟩ => show win0_1.index t (1 : Fin 2) * 1024 + 1 * d.val = d.val; rw [e1]; omega

/-! ## The output blocks tile the result array -/

/-- An index of the result array is in point `t`'s output block iff each coordinate is in the block's range. -/
theorem out_mem_blk (t : Fin cfg0.N) (i : S8192x1024.Idx) :
    i ∈ ((cfg0.win 2).blk t).view.set ↔
      ∀ a : Fin 2, win0_2.index t a * S1024x1024.size a ≤ (i a).val
        ∧ (i a).val < win0_2.index t a * S1024x1024.size a + S1024x1024.size a := by
  show i ∈ ((View.whole main_v0).slice (win0_2.rect t)).set ↔ _
  rw [View.set_slice_whole, Rect.mem_set_unit]
  exact Iff.rfl

/-- Entry `(r, d)` of the output block at point `t`, read off a whole array, is entry
    `(1024 * (t / 8) + r, d)` of the array. -/
theorem blk2_read_apply (c : Dev nD) (G : Buf (Elt F) ((cfg0.win 2).arr.view.loc (c.tc : Thread nD τ)))
    (t : Fin cfg0.N) (r d : Fin 1024) :
    ((cfg0.win 2).blk t).view.read (Elt F) G (ValueIdx.ix2 r d)
      = G (ValueIdx.ix2 (⟨(t.val / 8) * 1024 + r.val, by have := t.isLt; have : cfg0.N = 64 := N_0; omega⟩ : Fin 8192) d) := by
  obtain ⟨e0, e1⟩ := idx2 t
  rw [View.read_apply]
  refine congrArg (G : S8192x1024.Idx → Elt F .f32) (funext fun a => Fin.ext ?_)
  match a with
  | ⟨0, _⟩ => show win0_2.index t (0 : Fin 2) * 1024 + 1 * r.val = (t.val / 8) * 1024 + r.val; rw [e0]; omega
  | ⟨1, _⟩ => show win0_2.index t (1 : Fin 2) * 1024 + 1 * d.val = d.val; rw [e1]; omega

/-- Row `n` of the result array is in the block written back at the last key block of query block
    `n / 1024`, the point `8 * (n / 1024) + 7`. -/
theorem out_cover (i : S8192x1024.Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1024 := (i 1).isLt
  have ht : 8 * ((i 0).val / 1024) + 7 < cfg0.N := by omega
  obtain ⟨e0, e1⟩ := idx2 ⟨8 * ((i 0).val / 1024) + 7, ht⟩
  have e0' : win0_2.index ⟨8 * ((i 0).val / 1024) + 7, ht⟩ (0 : Fin 2) = (i 0).val / 1024 := by
    rw [e0]; show (8 * ((i 0).val / 1024) + 7) / 8 = (i 0).val / 1024; omega
  refine ⟨⟨8 * ((i 0).val / 1024) + 7, ht⟩, (flush0_2 _).mpr (by show (8 * ((i 0).val / 1024) + 7) % 8 = 7; omega), ?_⟩
  rw [out_mem_blk]
  intro a
  match a with
  | ⟨0, _⟩ =>
    show win0_2.index ⟨8 * ((i 0).val / 1024) + 7, ht⟩ (0 : Fin 2) * 1024 ≤ (i 0).val
      ∧ (i 0).val < win0_2.index ⟨8 * ((i 0).val / 1024) + 7, ht⟩ (0 : Fin 2) * 1024 + 1024
    rw [e0']; omega
  | ⟨1, _⟩ =>
    show win0_2.index ⟨8 * ((i 0).val / 1024) + 7, ht⟩ (1 : Fin 2) * 1024 ≤ (i 1).val
      ∧ (i 1).val < win0_2.index ⟨8 * ((i 0).val / 1024) + 7, ht⟩ (1 : Fin 2) * 1024 + 1024
    rw [e1]; omega

/-- If every write-back of the output window (the points whose key block is the last) writes its block of
    one whole-array function `G`, the result array ends holding `G`. -/
theorem arrAt_out (c : Dev nD) (dat : Pipeline.Dat τ (Elt F) Unit ℕ (UR sig nD τ) ℕ cfg0 c)
    (G : Buf (Elt F) ((cfg0.win 2).arr.view.loc (c.tc : Thread nD τ)))
    (hfl : ∀ t : Fin cfg0.N, t.val % 8 = 7 → dat.flushed 2 t = ((cfg0.win 2).blk t).view.read (Elt F) G) :
    dat.arrAt 2 cfg0.N = G :=
  dat.arrAt_eq_of_cover 2 G (fun t hf => hfl t ((flush0_2 t).mp hf)) out_cover

/-- The same, with the write-backs stated entry by entry: if at every point whose key block is the last the
    output's staging contents at `(r, d)` are `G` at `(1024 * (t / 8) + r, d)`, the result array ends holding `G`. -/
theorem arrAt_out_of_entries (c : Dev nD) (dat : Pipeline.Dat τ (Elt F) Unit ℕ (UR sig nD τ) ℕ cfg0 c)
    (G : Buf (Elt F) ((cfg0.win 2).arr.view.loc (c.tc : Thread nD τ)))
    (hfl : ∀ t : Fin cfg0.N, t.val % 8 = 7 → ∀ r d : Fin 1024,
      dat.after 2 t (ValueIdx.ix2 r d)
        = G (ValueIdx.ix2 (⟨(t.val / 8) * 1024 + r.val, by have := t.isLt; have : cfg0.N = 64 := N_0; omega⟩ : Fin 8192) d)) :
    dat.arrAt 2 cfg0.N = G :=
  arrAt_out c dat G fun t ht => by
    funext j
    obtain ⟨r, d, rfl⟩ : ∃ (r d : Fin 1024), j = ValueIdx.ix2 r d := ⟨j 0, j 1, ValueIdx.eq_ix2 j⟩
    rw [blk2_read_apply]
    exact hfl t ht r d

end Cert.KernelIdeal.Flash

end
-- ==== Proof.AttnSpec.lean ====
/-
  Dense self-attention with queries, keys and values all equal to one matrix `x` of 8192 rows and 1024
  columns, over the extended reals, in two arrangements.

  The whole-array arrangement: the scores `s n m = ∑ d, x n d * x m d`, each row shifted by its maximum,
  exponentiated, divided by the row's sum of exponentials, and the weights applied to the rows of `x`.

  The blockwise (online) arrangement: for a block of 1024 query rows, the key rows are met 1024 at a time;
  a running maximum `m`, a running denominator `l` and a running numerator `acc` are kept, the old
  denominator and numerator rescaled by `exp (m_old - m_new)` whenever the maximum grows, and the quotient
  `acc / l` is taken after the last block. The scores of a block are computed from a two-term split of the
  queries and keys (`q = qh + ql`, `k = k + (k - k)`), the three cross terms summed.

  The two arrangements agree on matrices of real numbers: `online_eq_attn` (proved in a module of its own).
-/
import Idealize.ShloMosaic.PureOps.Ideal

noncomputable section

open scoped BigOperators

namespace Cert.Attn

open Idealize.ShloMosaic

/-- A matrix of extended reals. -/
abbrev Mat (a b : Nat) := Fin a → Fin b → EReal

/-- Row `r` of the `b`-th block of 1024 rows. -/
def row (b : Fin 8) (r : Fin 1024) : Fin 8192 := ⟨b.val * 1024 + r.val, by omega⟩

/-- The `b`-th block of 1024 rows of `x`. -/
def blk (x : Mat 8192 1024) (b : Fin 8) : Mat 1024 1024 := fun r d => x (row b r) d

/-! ## The whole-array arrangement -/

section Whole

variable (x : Mat 8192 1024)

/-- The score of query row `n` against key row `m`. -/
def score (n m : Fin 8192) : EReal := ∑ d : Fin 1024, x n d * x m d

/-- The maximum of row `n`'s scores (the fold starts at `-∞`, and is capped below by `-∞` once more). -/
def rowMax (n : Fin 8192) : EReal := max ⊥ ((Finset.univ : Finset (Fin 8192)).fold max ⊥ (fun m => score x n m))

/-- The shifted exponential of a score. -/
def expo (n m : Fin 8192) : EReal := Ideal.exp (score x n m - rowMax x n)

/-- The sum of row `n`'s shifted exponentials. -/
def denom (n : Fin 8192) : EReal := 0 + ∑ m : Fin 8192, expo x n m

/-- The softmax weight of key row `m` for query row `n`. -/
def weight (n m : Fin 8192) : EReal := Ideal.div (expo x n m) (denom x n)

/-- Attention: the weights applied to the rows of `x`. -/
def attn (n : Fin 8192) (d : Fin 1024) : EReal := ∑ m : Fin 8192, weight x n m * x m d

end Whole

/-! ## The blockwise arrangement -/

/-- The scores of a block of queries, given as a two-term split `qh`, `ql`, against a block of keys `kv`
    whose own second term is `kv - kv`: the three cross terms, in the order they are summed. -/
def blkScore (qh ql kv : Mat 1024 1024) (r c : Fin 1024) : EReal :=
  (∑ d : Fin 1024, qh r d * kv c d) + (∑ d : Fin 1024, qh r d * (kv c d - kv c d)) + (∑ d : Fin 1024, ql r d * kv c d)

/-- The running state of one block of query rows: maximum, denominator, numerator. -/
structure St where
  m : Fin 1024 → EReal
  l : Fin 1024 → EReal
  acc : Mat 1024 1024

/-- The running maximum after a block of scores `S`. -/
def newMax (mOld : Fin 1024 → EReal) (S : Mat 1024 1024) (r : Fin 1024) : EReal :=
  max (mOld r) ((Finset.univ : Finset (Fin 1024)).fold max ⊥ (fun c => S r c))

/-- One block of keys and values `kv` with scores `S` folded into the state. -/
def step (S kv : Mat 1024 1024) (s : St) : St where
  m := newMax s.m S
  l r := Ideal.exp (s.m r - newMax s.m S r) * s.l r + ∑ c : Fin 1024, Ideal.exp (S r c - newMax s.m S r)
  acc r d := Ideal.exp (s.m r - newMax s.m S r) * s.acc r d
    + ∑ c : Fin 1024, Ideal.exp (S r c - newMax s.m S r) * kv c d

/-- The state before any block: maximum `-∞`, denominator and numerator zero. -/
def init : St := ⟨fun _ => ⊥, fun _ => 0, fun _ _ => 0⟩

/-- The state of query block `b` after the first `j` key blocks (at most eight). -/
def run (x : Mat 8192 1024) (b : Fin 8) : Nat → St
  | 0 => init
  | j + 1 =>
    if h : j < 8 then
      step (blkScore (blk x b) (fun r d => blk x b r d - blk x b r d) (blk x ⟨j, h⟩)) (blk x ⟨j, h⟩) (run x b j)
    else run x b j

/-- The quotient taken after the last block. -/
def out (s : St) (r d : Fin 1024) : EReal := Ideal.div (s.acc r d) (s.l r)

/-- The word `0xFF800000` read as a binary32 is `-∞`. -/
theorem ofBits_negInf : Ideal.ofBits .f32 0xFF800000#32 = ⊥ := by
  simp [Ideal.ofBits, Ideal.ieee]

end Cert.Attn

end
-- ==== Proof.PayIdeal.lean ====
/-
  The idealized kernel's arithmetic read at an index, over the extended reals: the constant and copying payloads,
  the two matrix products as sums over the contracted coordinate, the block of scores, the row maximum and the row
  sum as a fold and a sum over a row's lanes, and from them one step of the blockwise online-softmax recurrence
  (`Cert.Attn.step`) and its final quotient (`Cert.Attn.out`).
-/
import proofs.«179613_j78254304133325_2_alg».proof.Proof.Gen.KernelIdeal.Skeleton
import proofs.«179613_j78254304133325_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayAttn

open Idealize.ShloMosaic Idealize.ShloMosaic.ValueIdx Cert.KernelIdeal Cert.KernelIdeal.Gen

/-- A 1024 × 1024 vector as a matrix. -/
def mat (V : S1024x1024.Idx → EReal) : Cert.Attn.Mat 1024 1024 := fun r d => V (ix2 r d)
/-- A 1024 × 1 vector as a column. -/
def col (v : S1024x1.Idx → EReal) : Fin 1024 → EReal := fun r => v (ix2 r (0 : Fin 1))
/-- The three carried vectors as a state of the recurrence. -/
def toSt (m l : S1024x1.Idx → EReal) (acc : S1024x1024.Idx → EReal) : Cert.Attn.St := ⟨col m, col l, mat acc⟩

/-! ## The constant and copying payloads -/

/-- The running maximum starts at `-∞`. -/
theorem pay4_eq : k0_pay4 (F := Ideal) = fun _ => (⊥ : EReal) := by
  unfold k0_pay4
  refine (shapeCast_self _ _).trans ?_
  funext i
  exact Cert.Attn.ofBits_negInf

/-- The running denominator starts at zero. -/
theorem pay5_eq : k0_pay5 (F := Ideal) = fun _ => (0 : EReal) := by
  unfold k0_pay5
  refine (shapeCast_self _ _).trans ?_
  funext i
  exact Ideal.ofBits_zero_f32

/-- The running numerator starts at zero. -/
theorem pay6_eq : k0_pay6 (F := Ideal) = fun _ => (0 : EReal) := by
  unfold k0_pay6
  refine (shapeCast_self _ _).trans ?_
  funext i
  exact Ideal.ofBits_zero_f32

/-- The first term of the split of the queries is the queries themselves (rounding is the identity on extended reals). -/
theorem pay7_eq (Q : S1024x1024.Idx → EReal) : k0_pay7 (F := Ideal) Q = Q := by
  unfold k0_pay7
  exact shapeCast_self _ _

/-- The second term of the split is the queries minus themselves. -/
theorem pay8_eq (Q : S1024x1024.Idx → EReal) : k0_pay8 (F := Ideal) Q = fun i => Q i - Q i := by
  unfold k0_pay8
  exact shapeCast_self _ _

/-- The keys and values pass through their rounding unchanged. -/
theorem pay14_eq (KV : S1024x1024.Idx → EReal) : k0_pay14 (F := Ideal) KV = KV := rfl

/-- The new maximum is stored as it is. -/
theorem pay2_eq (v : S1024x1.Idx → EReal) : k0_pay2 (F := Ideal) v = v := by
  unfold k0_pay2
  exact shapeCast_self _ _

/-! ## The two products read at an index -/

/-- A product contracting the second axis of both operands, read at `(r, c)`. -/
abbrev D11 : DotDims S1024x1024 S1024x1024 S1024x1024 := dot_S1024x1024_S1024x1024_S1024x1024_1_1_0_0_n_n
/-- A product contracting the second axis of the left operand with the first of the right, read at `(r, d)`. -/
abbrev D10 : DotDims S1024x1024 S1024x1024 S1024x1024 := dot_S1024x1024_S1024x1024_S1024x1024_1_0_0_1_n_n

theorem lhs11_0 (i : S1024x1024.Idx) (q : D11.contr.Idx) : (D11.lhsIdx i q 0).val = (i 0).val := by
  unfold DotDims.lhsIdx
  rw [dif_neg (show ¬(0 : Fin S1024x1024.rank) ∈ D11.lhsBatch by decide),
    dif_pos (show (0 : Fin S1024x1024.rank) ∈ D11.lhsNonContracting by decide)]
  rfl
theorem lhs11_1 (i : S1024x1024.Idx) (q : D11.contr.Idx) : (D11.lhsIdx i q 1).val = (q ⟨0, by decide⟩).val :=
  D11.lhsIdx_val_of_single rfl i q
theorem rhs11_0 (i : S1024x1024.Idx) (q : D11.contr.Idx) : (D11.rhsIdx i q 0).val = (i 1).val := by
  unfold DotDims.rhsIdx
  rw [dif_neg (show ¬(0 : Fin S1024x1024.rank) ∈ D11.rhsBatch by decide),
    dif_pos (show (0 : Fin S1024x1024.rank) ∈ D11.rhsNonContracting by decide)]
  rfl
theorem rhs11_1 (i : S1024x1024.Idx) (q : D11.contr.Idx) : (D11.rhsIdx i q 1).val = (q ⟨0, by decide⟩).val :=
  D11.rhsIdx_val_of_single rfl i q

/-- The product of `A` with the transpose of `B` into a zero accumulator, at `(r, c)`: `∑ d, A r d * B c d`. -/
theorem matmul11_apply (A B : FVec Ideal S1024x1024 .bf16) (r c : Fin 1024) :
    matmul (F := Ideal) D11 none A B (constant (F := Ideal) S1024x1024 .f32 0x00000000#32) (ix2 r c)
      = ∑ d : Fin 1024, A (ix2 r d) * B (ix2 c d) := by
  refine (Ideal.matmul_constant_zero_apply D11 none A B (ix2 r c)).trans ?_
  rw [← Equiv.sum_comp (contrEquiv1 D11 1024 rfl rfl).symm]
  refine Finset.sum_congr rfl fun k _ => ?_
  have hk := contrEquiv1_symm_val D11 1024 rfl rfl k
  have el : D11.lhsIdx (ix2 r c) ((contrEquiv1 D11 1024 rfl rfl).symm k) = ix2 r k := funext fun a => Fin.ext (by
    match a with
    | ⟨0, _⟩ => exact lhs11_0 _ _
    | ⟨1, _⟩ => exact (lhs11_1 _ _).trans hk)
  have er : D11.rhsIdx (ix2 r c) ((contrEquiv1 D11 1024 rfl rfl).symm k) = ix2 c k := funext fun a => Fin.ext (by
    match a with
    | ⟨0, _⟩ => exact rhs11_0 _ _
    | ⟨1, _⟩ => exact (rhs11_1 _ _).trans hk)
  rw [el, er]

theorem lhs10_0 (i : S1024x1024.Idx) (q : D10.contr.Idx) : (D10.lhsIdx i q 0).val = (i 0).val := by
  unfold DotDims.lhsIdx
  rw [dif_neg (show ¬(0 : Fin S1024x1024.rank) ∈ D10.lhsBatch by decide),
    dif_pos (show (0 : Fin S1024x1024.rank) ∈ D10.lhsNonContracting by decide)]
  rfl
theorem lhs10_1 (i : S1024x1024.Idx) (q : D10.contr.Idx) : (D10.lhsIdx i q 1).val = (q ⟨0, by decide⟩).val :=
  D10.lhsIdx_val_of_single rfl i q
theorem rhs10_0 (i : S1024x1024.Idx) (q : D10.contr.Idx) : (D10.rhsIdx i q 0).val = (q ⟨0, by decide⟩).val :=
  D10.rhsIdx_val_of_single rfl i q
theorem rhs10_1 (i : S1024x1024.Idx) (q : D10.contr.Idx) : (D10.rhsIdx i q 1).val = (i 1).val := by
  unfold DotDims.rhsIdx
  rw [dif_neg (show ¬(1 : Fin S1024x1024.rank) ∈ D10.rhsBatch by decide),
    dif_pos (show (1 : Fin S1024x1024.rank) ∈ D10.rhsNonContracting by decide)]
  rfl

/-- The plain product of `A` with `B` into a zero accumulator, at `(r, d)`: `∑ c, A r c * B c d`. -/
theorem matmul10_apply (A B : FVec Ideal S1024x1024 .bf16) (r d : Fin 1024) :
    matmul (F := Ideal) D10 none A B (constant (F := Ideal) S1024x1024 .f32 0x00000000#32) (ix2 r d)
      = ∑ c : Fin 1024, A (ix2 r c) * B (ix2 c d) := by
  refine (Ideal.matmul_constant_zero_apply D10 none A B (ix2 r d)).trans ?_
  rw [← Equiv.sum_comp (contrEquiv1 D10 1024 rfl rfl).symm]
  refine Finset.sum_congr rfl fun k _ => ?_
  have hk := contrEquiv1_symm_val D10 1024 rfl rfl k
  have el : D10.lhsIdx (ix2 r d) ((contrEquiv1 D10 1024 rfl rfl).symm k) = ix2 r k := funext fun a => Fin.ext (by
    match a with
    | ⟨0, _⟩ => exact lhs10_0 _ _
    | ⟨1, _⟩ => exact (lhs10_1 _ _).trans hk)
  have er : D10.rhsIdx (ix2 r d) ((contrEquiv1 D10 1024 rfl rfl).symm k) = ix2 k d := funext fun a => Fin.ext (by
    match a with
    | ⟨0, _⟩ => exact (rhs10_0 _ _).trans hk
    | ⟨1, _⟩ => exact rhs10_1 _ _)
  rw [el, er]

/-! ## The block of scores -/

/-- The scores of the block: the three cross terms of the split queries against the keys and the keys' own second term. -/
theorem pay9_apply (KV qh ql : S1024x1024.Idx → EReal) (r c : Fin 1024) :
    k0_pay9 (F := Ideal) KV qh ql (ix2 r c) = Cert.Attn.blkScore (mat qh) (mat ql) (mat KV) r c := by
  unfold k0_pay9
  refine (addf_apply _ _ _).trans ?_
  refine congrArg₂ (· + ·) ((addf_apply _ _ _).trans (congrArg₂ (· + ·) ?_ ?_)) ?_
  · exact matmul11_apply _ _ r c
  · exact matmul11_apply _ _ r c
  · exact matmul11_apply _ _ r c

/-! ## Column forms of the layout operations -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index over row `r` with lane `c` inserted is `(r, c)`. -/
theorem lift_ix1 (r c : Fin 1024) : reduces_S1024x1024_S1024.lift (ix1 r) c = ix2 r c :=
  funext fun a => Fin.ext (by
    match a with
    | ⟨0, _⟩ => rfl
    | ⟨1, _⟩ => rfl)

/-- The exponential of a vector at an index. -/
theorem exp_apply {s : Shape} {φ : FTy} (a : FVec Ideal s φ) (i : s.Idx) : exp a i = Ideal.exp (a i) := rfl

/-- A row's maximum: the fold of `max` from `-∞` over the row's lanes. -/
theorem rowMax_apply (src : FVec Ideal S1024x1024 .f32) (hφ : FKind.Formats .f32)
    (hacc : (0xFF800000#32 : BitVec 32) = FKind.maximumf.neutral .f32 hφ) (r : Fin 1024) :
    multiReduction (F := Ideal) .maximumf [1] S1024 src 0xFF800000#32 reduces_S1024x1024_S1024 hφ hacc (ix1 r)
      = (Finset.univ : Finset (Fin 1024)).fold max (⊥ : EReal) (fun c => src (ix2 r c)) := by
  refine (Ideal.multiReduction_maximumf_single src _ reduces_S1024x1024_S1024 hφ hacc (ix1 r)).trans ?_
  show (Finset.univ : Finset (Fin 1024)).fold max (Ideal.ofBits .f32 0xFF800000#32)
    (fun c => src (reduces_S1024x1024_S1024.lift (ix1 r) c)) = _
  rw [Cert.Attn.ofBits_negInf]
  exact congrArg (fun f => (Finset.univ : Finset (Fin 1024)).fold max (⊥ : EReal) f) (funext fun c => congrArg src (lift_ix1 r c))

/-- A row's sum over its lanes. -/
theorem rowSum_apply (src : FVec Ideal S1024x1024 .f32) (hφ : FKind.Formats .f32)
    (hacc : (0x00000000#32 : BitVec 32) = FKind.add.neutral .f32 hφ) (r : Fin 1024) :
    multiReduction (F := Ideal) .add [1] S1024 src 0x00000000#32 reduces_S1024x1024_S1024 hφ hacc (ix1 r)
      = ∑ c : Fin 1024, src (ix2 r c) := by
  refine (Ideal.multiReduction_add_single src _ reduces_S1024x1024_S1024 hφ hacc (ix1 r)).trans ?_
  exact Finset.sum_congr rfl fun c _ => congrArg src (lift_ix1 r c)

/-! ## The new maximum -/

/-- The new maximum at row `r`. -/
theorem pay10_apply (KV qh ql : S1024x1024.Idx → EReal) (m : S1024x1.Idx → EReal) (r : Fin 1024) :
    k0_pay10 (F := Ideal) KV qh ql m (ix2 r (0 : Fin 1))
      = Cert.Attn.newMax (col m) (Cert.Attn.blkScore (mat qh) (mat ql) (mat KV)) r := by
  unfold k0_pay10
  refine (maximumf_apply _ _ _).trans ?_
  refine congrArg (max (m (ix2 r (0 : Fin 1)))) ?_
  refine (shapeCast_a_a1_apply _ _ r 0).trans ?_
  refine (rowMax_apply _ _ _ r).trans ?_
  exact congrArg (fun f => (Finset.univ : Finset (Fin 1024)).fold max (⊥ : EReal) f) (funext fun c => pay9_apply KV qh ql r c)

/-- The new maximum, as a column. -/
theorem pay10_col (KV qh ql : S1024x1024.Idx → EReal) (m : S1024x1.Idx → EReal) :
    col (k0_pay10 (F := Ideal) KV qh ql m) = Cert.Attn.newMax (col m) (Cert.Attn.blkScore (mat qh) (mat ql) (mat KV)) :=
  funext fun r => pay10_apply KV qh ql m r

/-! ## One step of the recurrence -/

section Step
variable (KV qh ql acc : S1024x1024.Idx → EReal) (m l : S1024x1.Idx → EReal)

/-- The rescaling factor of the old denominator and numerator at row `r`. -/
theorem pay11_apply (r : Fin 1024) :
    k0_pay11 (F := Ideal) KV qh ql m m (ix2 r (0 : Fin 1))
      = Ideal.exp (col m r - Cert.Attn.newMax (col m) (Cert.Attn.blkScore (mat qh) (mat ql) (mat KV)) r) := by
  unfold k0_pay11
  refine (exp_apply _ _).trans ?_
  refine congrArg Ideal.exp ?_
  refine (subf_apply _ _ _).trans ?_
  exact congrArg (fun x => m (ix2 r (0 : Fin 1)) - x) (pay10_apply KV qh ql m r)

/-- The shifted exponential of the score at `(r, c)`. -/
theorem pay12_apply (r c : Fin 1024) :
    k0_pay12 (F := Ideal) KV qh ql m (ix2 r c)
      = Ideal.exp (Cert.Attn.blkScore (mat qh) (mat ql) (mat KV) r c
          - Cert.Attn.newMax (col m) (Cert.Attn.blkScore (mat qh) (mat ql) (mat KV)) r) := by
  unfold k0_pay12
  refine (exp_apply _ _).trans ?_
  refine congrArg Ideal.exp ?_
  refine (subf_apply _ _ _).trans ?_
  refine congrArg₂ (· - ·) (pay9_apply KV qh ql r c) ?_
  refine (broadcastTo_a1_ab_apply _ _ r c).trans ?_
  exact pay10_apply KV qh ql m r

/-- The new denominator at row `r`. -/
theorem pay13_apply (r : Fin 1024) :
    k0_pay13 (F := Ideal) KV qh ql m m l (ix2 r (0 : Fin 1))
      = (Cert.Attn.step (Cert.Attn.blkScore (mat qh) (mat ql) (mat KV)) (mat KV) (toSt m l acc)).l r := by
  unfold k0_pay13
  refine (congrFun (shapeCast_self _ _) _).trans ?_
  refine (addf_apply _ _ _).trans ?_
  refine congrArg₂ (· + ·) ?_ ?_
  · refine (mulf_apply _ _ _).trans ?_
    exact congrArg (fun x => x * l (ix2 r (0 : Fin 1))) (pay11_apply KV qh ql m r)
  · refine (shapeCast_a_a1_apply _ _ r 0).trans ?_
    refine (rowSum_apply _ _ _ r).trans ?_
    exact Finset.sum_congr rfl fun c _ => pay12_apply KV qh ql m r c

/-- The new numerator at `(r, d)`. -/
theorem pay1_apply (r d : Fin 1024) :
    k0_pay1 (F := Ideal) (k0_pay11 (F := Ideal) KV qh ql m m) (k0_pay12 (F := Ideal) KV qh ql m) (k0_pay14 (F := Ideal) KV) acc (ix2 r d)
      = (Cert.Attn.step (Cert.Attn.blkScore (mat qh) (mat ql) (mat KV)) (mat KV) (toSt m l acc)).acc r d := by
  unfold k0_pay1
  refine (congrFun (shapeCast_self _ _) _).trans ?_
  refine (addf_apply _ _ _).trans ?_
  refine congrArg₂ (· + ·) ?_ ?_
  · refine (mulf_apply _ _ _).trans ?_
    refine congrArg (fun x => x * acc (ix2 r d)) ?_
    refine (broadcastTo_a1_ab_apply _ _ r d).trans ?_
    exact pay11_apply KV qh ql m r
  · refine (matmul10_apply _ _ r d).trans ?_
    exact Finset.sum_congr rfl fun c _ => congrArg (fun x => x * KV (ix2 c d)) (pay12_apply KV qh ql m r c)

/-- THE STEP: the three vectors the body stores are the recurrence's step applied to the three it loaded. -/
theorem step_eq :
    toSt (k0_pay2 (F := Ideal) (k0_pay10 (F := Ideal) KV qh ql m)) (k0_pay13 (F := Ideal) KV qh ql m m l)
        (k0_pay1 (F := Ideal) (k0_pay11 (F := Ideal) KV qh ql m m) (k0_pay12 (F := Ideal) KV qh ql m) (k0_pay14 (F := Ideal) KV) acc)
      = Cert.Attn.step (Cert.Attn.blkScore (mat qh) (mat ql) (mat KV)) (mat KV) (toSt m l acc) := by
  unfold toSt
  refine (Cert.Attn.St.mk.injEq _ _ _ _ _ _).mpr ⟨?_, ?_, ?_⟩
  · rw [pay2_eq]; exact pay10_col KV qh ql m
  · exact funext fun r => pay13_apply KV qh ql acc m l r
  · exact funext fun r => funext fun d => pay1_apply KV qh ql acc m l r d

end Step

/-! ## The quotient -/

/-- The stored quotient at `(r, d)` is the recurrence's output. -/
theorem pay3_apply (acc : S1024x1024.Idx → EReal) (m l : S1024x1.Idx → EReal) (r d : Fin 1024) :
    k0_pay3 (F := Ideal) acc l (ix2 r d) = Cert.Attn.out (toSt m l acc) r d := by
  unfold k0_pay3
  refine (divf_apply _ _ _).trans ?_
  exact congrArg (Ideal.div (acc (ix2 r d))) (broadcastTo_a1_ab_apply _ _ r d)

end Cert.PayAttn

end
-- ==== Proof.AttnMath1.lean ====
/-
  Real-number preliminaries for the agreement of blockwise (online) softmax attention with the whole-array
  arrangement: finite sums and running maxima of coerced reals are coerced reals; sums over the 8192 key
  rows taken block by block; the scores of a matrix of reals are reals.
-/
import proofs.«179613_j78254304133325_2_alg».proof.Proof.AttnSpec

noncomputable section

open scoped BigOperators

namespace Cert.Attn

open Idealize.ShloMosaic

/-- A finite sum of coerced reals is the coerced sum. -/
theorem coe_sum {ι : Type*} (t : Finset ι) (f : ι → ℝ) :
    (∑ i ∈ t, (f i : EReal)) = ((∑ i ∈ t, f i : ℝ) : EReal) := by
  classical
  refine Finset.induction_on t ?_ ?_
  · simp
  · intro a t ha ih
    rw [Finset.sum_insert ha, Finset.sum_insert ha, ih, EReal.coe_add]

/-- The running maximum, started at `-∞`, of a nonempty finite family of reals is a real. -/
theorem fold_max_coe {ι : Type*} (t : Finset ι) (ht : t.Nonempty) (f : ι → ℝ) :
    ∃ M : ℝ, t.fold max (⊥ : EReal) (fun i => (f i : EReal)) = (M : EReal) := by
  classical
  revert ht
  refine Finset.induction_on t ?_ ?_
  · intro h
    exact absurd h Finset.not_nonempty_empty
  · intro a t ha ih _
    rw [Finset.fold_insert ha]
    rcases t.eq_empty_or_nonempty with rfl | hne
    · exact ⟨f a, by simp⟩
    · obtain ⟨M, hM⟩ := ih hne
      exact ⟨max (f a) M, by rw [hM]; norm_cast⟩

/-! ## Sums over the key rows, block by block -/

/-- The sum of `f` over the key rows of the first `j` blocks. -/
def psum (j : Nat) (f : Fin 8192 → ℝ) : ℝ :=
  ∑ i ∈ Finset.range j, if h : i < 8 then ∑ c : Fin 1024, f (row ⟨i, h⟩ c) else 0

theorem psum_zero (f : Fin 8192 → ℝ) : psum 0 f = 0 := by
  simp [psum]

theorem psum_succ {j : Nat} (h : j < 8) (f : Fin 8192 → ℝ) :
    psum (j + 1) f = psum j f + ∑ c : Fin 1024, f (row ⟨j, h⟩ c) := by
  rw [psum, Finset.sum_range_succ, dif_pos h]
  rfl

theorem psum_mul_left (j : Nat) (a : ℝ) (f : Fin 8192 → ℝ) :
    psum j (fun m => a * f m) = a * psum j f := by
  unfold psum
  rw [Finset.mul_sum]
  refine Finset.sum_congr rfl (fun i _ => ?_)
  by_cases h : i < 8
  · rw [dif_pos h, dif_pos h, Finset.mul_sum]
  · rw [dif_neg h, dif_neg h, mul_zero]

/-- A row index is a block index and an index within the block. -/
def rowEquiv : Fin 8 × Fin 1024 ≃ Fin 8192 where
  toFun p := row p.1 p.2
  invFun m := (⟨m.val / 1024, by omega⟩, ⟨m.val % 1024, by omega⟩)
  left_inv p := by
    rcases p with ⟨⟨a, ha⟩, ⟨c, hc⟩⟩
    refine Prod.ext (Fin.ext ?_) (Fin.ext ?_)
    · show (a * 1024 + c) / 1024 = a
      omega
    · show (a * 1024 + c) % 1024 = c
      omega
  right_inv m := by
    refine Fin.ext ?_
    show m.val / 1024 * 1024 + m.val % 1024 = m.val
    omega

/-- Eight blocks are all the key rows. -/
theorem psum_eight (f : Fin 8192 → ℝ) : psum 8 f = ∑ m : Fin 8192, f m := by
  have h1 : psum 8 f = ∑ i : Fin 8, ∑ c : Fin 1024, f (row i c) := by
    unfold psum
    rw [← Fin.sum_univ_eq_sum_range (fun i => if h : i < 8 then ∑ c : Fin 1024, f (row ⟨i, h⟩ c) else 0) 8]
    refine Finset.sum_congr rfl (fun i _ => ?_)
    rw [dif_pos i.isLt]
  rw [h1, ← Fintype.sum_prod_type (fun p : Fin 8 × Fin 1024 => f (row p.1 p.2))]
  exact Fintype.sum_equiv rowEquiv _ _ (fun _ => rfl)

/-! ## Scores of a matrix of reals -/

/-- The score of query row `n` against key row `m`, over the reals. -/
def rscore (y : Fin 8192 → Fin 1024 → ℝ) (n m : Fin 8192) : ℝ := ∑ d : Fin 1024, y n d * y m d

/-- A matrix of reals read as a matrix of extended reals. -/
def lift (y : Fin 8192 → Fin 1024 → ℝ) : Mat 8192 1024 := fun n d => (y n d : EReal)

theorem score_coe (y : Fin 8192 → Fin 1024 → ℝ) (n m : Fin 8192) :
    score (lift y) n m = (rscore y n m : EReal) := by
  unfold score rscore lift
  rw [← coe_sum]
  refine Finset.sum_congr rfl (fun d _ => ?_)
  rw [EReal.coe_mul]

/-- The three cross terms of a block's scores: on reals the second and third vanish
    (`k - k = 0` and `q - q = 0`), and the first is the score. -/
theorem blkScore_coe (y : Fin 8192 → Fin 1024 → ℝ) (b j : Fin 8) (r c : Fin 1024) :
    blkScore (blk (lift y) b) (fun r d => blk (lift y) b r d - blk (lift y) b r d) (blk (lift y) j) r c
      = (rscore y (row b r) (row j c) : EReal) := by
  have h0 : ∀ a : ℝ, (a : EReal) - (a : EReal) = 0 := fun a => by
    rw [← EReal.coe_sub, sub_self, EReal.coe_zero]
  simp only [blkScore, blk, lift, h0, mul_zero, zero_mul, Finset.sum_const_zero, add_zero]
  exact score_coe y (row b r) (row j c)

end Cert.Attn

end
-- ==== Proof.AttnMath2.lean ====
/-
  The invariant of the blockwise recurrence on a matrix of reals: after the first `j` key blocks the running
  maximum of a query row is a real `μ` (or still `-∞` before the first block), the running denominator is
  the sum of `exp (s - μ)` over the key rows met so far, and the running numerator the same sum weighted by
  the rows' entries.
-/
import proofs.«179613_j78254304133325_2_alg».proof.Proof.AttnMath1

noncomputable section

open scoped BigOperators

namespace Cert.Attn

open Idealize.ShloMosaic

theorem run_succ (x : Mat 8192 1024) (b : Fin 8) {j : Nat} (h : j < 8) :
    run x b (j + 1)
      = step (blkScore (blk x b) (fun r d => blk x b r d - blk x b r d) (blk x ⟨j, h⟩)) (blk x ⟨j, h⟩) (run x b j) := by
  rw [run, dif_pos h]

/-- Rescaling the sums met so far from the old maximum to the new one. Before the first block the old
    maximum is `-∞`, the factor `exp (-∞) = 0`, and the sums are empty. -/
theorem rescale (j : Nat) (mOld : EReal) (μ μ' : ℝ) (hm : mOld = (μ : EReal) ∨ (mOld = ⊥ ∧ j = 0))
    (f f' : Fin 8192 → ℝ) (hf : ∀ m, f' m = Real.exp (μ - μ') * f m) :
    Ideal.exp (mOld - (μ' : EReal)) * ((psum j f : ℝ) : EReal) = ((psum j f' : ℝ) : EReal) := by
  rcases hm with hm | ⟨hm, hj⟩
  · rw [hm, ← EReal.coe_sub, Ideal.exp_coe, ← EReal.coe_mul, ← psum_mul_left]
    congr 2
    funext m
    exact (hf m).symm
  · rw [hm, hj, EReal.bot_sub, Ideal.exp_bot, zero_mul, psum_zero, EReal.coe_zero]

/-- The state of a query block after `j` key blocks, in real terms. -/
def Inv (y : Fin 8192 → Fin 1024 → ℝ) (b : Fin 8) (j : Nat) (st : St) : Prop :=
  ∀ r : Fin 1024, ∃ μ : ℝ, (st.m r = (μ : EReal) ∨ (st.m r = ⊥ ∧ j = 0)) ∧
    st.l r = ((psum j fun m => Real.exp (rscore y (row b r) m - μ) : ℝ) : EReal) ∧
    ∀ d : Fin 1024,
      st.acc r d = ((psum j fun m => Real.exp (rscore y (row b r) m - μ) * y m d : ℝ) : EReal)

theorem inv_init (y : Fin 8192 → Fin 1024 → ℝ) (b : Fin 8) : Inv y b 0 init := by
  intro r
  refine ⟨0, Or.inr ⟨rfl, rfl⟩, ?_, fun d => ?_⟩
  · rw [psum_zero, EReal.coe_zero]; rfl
  · rw [psum_zero, EReal.coe_zero]; rfl

theorem inv_step (y : Fin 8192 → Fin 1024 → ℝ) (b : Fin 8) {j : Nat} (h : j < 8) (st : St)
    (hI : Inv y b j st) :
    Inv y b (j + 1)
      (step (fun r c => ((rscore y (row b r) (row ⟨j, h⟩ c) : ℝ) : EReal))
        (fun c d => ((y (row ⟨j, h⟩ c) d : ℝ) : EReal)) st) := by
  intro r
  obtain ⟨μ, hm, hl, hacc⟩ := hI r
  obtain ⟨F, hF⟩ := fold_max_coe (Finset.univ : Finset (Fin 1024)) Finset.univ_nonempty
    (fun c => rscore y (row b r) (row ⟨j, h⟩ c))
  have hnew : ∃ μ' : ℝ,
      newMax st.m (fun r c => ((rscore y (row b r) (row ⟨j, h⟩ c) : ℝ) : EReal)) r = (μ' : EReal) := by
    unfold newMax
    rw [hF]
    rcases hm with hm | ⟨hm, _⟩
    · exact ⟨max μ F, by rw [hm]; norm_cast⟩
    · exact ⟨F, by rw [hm]; simp⟩
  obtain ⟨μ', hμ'⟩ := hnew
  refine ⟨μ', Or.inl hμ', ?_, fun d => ?_⟩
  · show Ideal.exp (st.m r - newMax st.m _ r) * st.l r
        + ∑ c : Fin 1024, Ideal.exp (((rscore y (row b r) (row ⟨j, h⟩ c) : ℝ) : EReal) - newMax st.m _ r) = _
    rw [hμ', hl,
      rescale j (st.m r) μ μ' hm _ (fun m => Real.exp (rscore y (row b r) m - μ')) (fun m => by
        rw [← Real.exp_add]; congr 1; ring),
      psum_succ h, EReal.coe_add, ← coe_sum]
    congr 1
  · show Ideal.exp (st.m r - newMax st.m _ r) * st.acc r d
        + ∑ c : Fin 1024, Ideal.exp (((rscore y (row b r) (row ⟨j, h⟩ c) : ℝ) : EReal) - newMax st.m _ r)
            * ((y (row ⟨j, h⟩ c) d : ℝ) : EReal) = _
    rw [hμ', hacc d,
      rescale j (st.m r) μ μ' hm _ (fun m => Real.exp (rscore y (row b r) m - μ') * y m d) (fun m => by
        rw [← mul_assoc, ← Real.exp_add]; congr 2; ring),
      psum_succ h, EReal.coe_add, ← coe_sum]
    congr 1

theorem inv_run (y : Fin 8192 → Fin 1024 → ℝ) (b : Fin 8) :
    ∀ j : Nat, j ≤ 8 → Inv y b j (run (lift y) b j)
  | 0, _ => inv_init y b
  | j + 1, hj => by
    have h : j < 8 := hj
    rw [run_succ _ _ h]
    have hS : blkScore (blk (lift y) b) (fun r d => blk (lift y) b r d - blk (lift y) b r d)
        (blk (lift y) ⟨j, h⟩) = fun r c => ((rscore y (row b r) (row ⟨j, h⟩ c) : ℝ) : EReal) := by
      funext r c
      exact blkScore_coe y b ⟨j, h⟩ r c
    rw [hS]
    exact inv_step y b h _ (inv_run y b j (by omega))

end Cert.Attn

end
-- ==== Proof.AttnMath.lean ====
/-
  Blockwise (online) softmax attention agrees with the whole-array arrangement on a matrix of reals.

  After the eighth key block the running denominator and numerator of a query row are the sums of
  `exp (s - μ)` and of `exp (s - μ) · v` over all 8192 key rows, for some real shift `μ`; the whole-array
  arrangement uses the shift `M`, the row's maximum, which is some real too. A softmax quotient does not
  depend on the shift: `exp (s - μ) = exp (M - μ) · exp (s - M)`, and the common factor cancels.
-/
import proofs.«179613_j78254304133325_2_alg».proof.Proof.AttnMath2

noncomputable section

open scoped BigOperators

namespace Cert.Attn

open Idealize.ShloMosaic

/-- The quotient taken after the eighth block, in real terms. -/
theorem out_run (y : Fin 8192 → Fin 1024 → ℝ) (b : Fin 8) (r d : Fin 1024) :
    ∃ μ : ℝ, out (run (lift y) b 8) r d
      = (((∑ m : Fin 8192, Real.exp (rscore y (row b r) m - μ) * y m d)
          / (∑ m : Fin 8192, Real.exp (rscore y (row b r) m - μ)) : ℝ) : EReal) := by
  obtain ⟨μ, _, hl, hacc⟩ := inv_run y b 8 le_rfl r
  refine ⟨μ, ?_⟩
  have hpos : 0 < ∑ m : Fin 8192, Real.exp (rscore y (row b r) m - μ) :=
    Finset.sum_pos (fun m _ => Real.exp_pos _) Finset.univ_nonempty
  rw [out, hl, hacc d, psum_eight, psum_eight, Ideal.div_coe hpos.ne', ← EReal.coe_mul, mul_one_div]

/-- Whole-array attention of a matrix of reals, in real terms: the row maximum is some real `M`. -/
theorem attn_coe (y : Fin 8192 → Fin 1024 → ℝ) (n : Fin 8192) (d : Fin 1024) :
    ∃ M : ℝ, attn (lift y) n d
      = ((∑ m : Fin 8192, Real.exp (rscore y n m - M)
            * (1 / ∑ k : Fin 8192, Real.exp (rscore y n k - M)) * y m d : ℝ) : EReal) := by
  obtain ⟨M, hM⟩ := fold_max_coe (Finset.univ : Finset (Fin 8192)) Finset.univ_nonempty
    (fun m => rscore y n m)
  refine ⟨M, ?_⟩
  have hmax : rowMax (lift y) n = (M : EReal) := by
    unfold rowMax
    have hs : (fun m => score (lift y) n m) = fun m => ((rscore y n m : ℝ) : EReal) :=
      funext (score_coe y n)
    rw [hs, hM, max_bot_left]
  have hexpo : ∀ m, expo (lift y) n m = ((Real.exp (rscore y n m - M) : ℝ) : EReal) := by
    intro m
    rw [expo, hmax, score_coe, ← EReal.coe_sub, Ideal.exp_coe]
  have hpos : 0 < ∑ m : Fin 8192, Real.exp (rscore y n m - M) :=
    Finset.sum_pos (fun m _ => Real.exp_pos _) Finset.univ_nonempty
  have hden : denom (lift y) n = ((∑ m : Fin 8192, Real.exp (rscore y n m - M) : ℝ) : EReal) := by
    rw [denom, zero_add, ← coe_sum]
    exact Finset.sum_congr rfl (fun m _ => hexpo m)
  unfold attn
  rw [← coe_sum]
  refine Finset.sum_congr rfl (fun m _ => ?_)
  rw [weight, hden, hexpo, Ideal.div_coe hpos.ne', ← EReal.coe_mul]
  show _ * ((y m d : ℝ) : EReal) = _
  rw [← EReal.coe_mul]

/-- A softmax-weighted sum does not depend on the shift. -/
theorem softmax_shift (s v : Fin 8192 → ℝ) (μ M : ℝ) :
    (∑ m : Fin 8192, Real.exp (s m - μ) * v m) / (∑ m : Fin 8192, Real.exp (s m - μ))
      = ∑ m : Fin 8192, Real.exp (s m - M) * (1 / ∑ k : Fin 8192, Real.exp (s k - M)) * v m := by
  have hc : ∀ m, Real.exp (s m - μ) = Real.exp (M - μ) * Real.exp (s m - M) := fun m => by
    rw [← Real.exp_add]; congr 1; ring
  have hnum : ∑ m : Fin 8192, Real.exp (s m - μ) * v m
      = Real.exp (M - μ) * ∑ m : Fin 8192, Real.exp (s m - M) * v m := by
    rw [Finset.mul_sum]
    refine Finset.sum_congr rfl (fun m _ => ?_)
    rw [hc m, mul_assoc]
  have hden : ∑ m : Fin 8192, Real.exp (s m - μ)
      = Real.exp (M - μ) * ∑ m : Fin 8192, Real.exp (s m - M) := by
    rw [Finset.mul_sum]
    exact Finset.sum_congr rfl (fun m _ => hc m)
  rw [hnum, hden, mul_div_mul_left _ _ (Real.exp_ne_zero _), Finset.sum_div]
  refine Finset.sum_congr rfl (fun m _ => ?_)
  ring

/-- Eight online-softmax steps over the key blocks, then `acc / l`, are the softmax-weighted sum over all
    8192 key rows. -/
theorem online_eq_attn (x : Mat 8192 1024) (hfin : ∀ n d, ∃ y : ℝ, x n d = (y : EReal)) (b : Fin 8)
    (r d : Fin 1024) :
    out (run x b 8) r d = attn x (row b r) d := by
  choose y hy using hfin
  have hx : x = lift y := funext fun n => funext fun d => hy n d
  obtain ⟨μ, hμ⟩ := out_run y b r d
  obtain ⟨M, hM⟩ := attn_coe y (row b r) d
  rw [hx, hμ, hM, softmax_shift (fun m => rscore y (row b r) m) (fun m => y m d) μ M]

end Cert.Attn

end
-- ==== Proof.FlashValueCore.lean ====
/-
  The values the attention kernel's grid leaves behind, by induction over the grid's 64 points in order.
  Point `t` works on query block `t / 8` and key block `t % 8`. After it, the three carried buffers (running
  maximum, denominator, numerator) hold the blockwise recurrence's state of query block `t / 8` after
  `t % 8 + 1` key blocks, and the two cached buffers hold the query block and the query block minus itself.
  At a last key block the output's buffer holds the quotient, which is whole-array attention.

  This module takes what each run stores (one equation per buffer) and the blocks the two input windows hold
  as hypotheses, bundled in `Pieces`.
-/
import proofs.«179613_j78254304133325_2_alg».proof.Proof.FlashOuts
import proofs.«179613_j78254304133325_2_alg».proof.Proof.PayIdeal
import proofs.«179613_j78254304133325_2_alg».proof.Proof.AttnMath

set_option maxRecDepth 16384
set_option synthInstance.maxSize 4096

noncomputable section

namespace Cert.KernelIdeal.FlashValue

open Cert.KernelIdeal Cert.KernelIdeal.Gen Cert.KernelIdeal.Flash Cert.PayAttn
open Idealize.ShloMosaic Idealize.ShloMosaic.ValueIdx Idealize.ShloMosaic.TcCoe

/-! ## One step, over any matrix -/

/-- The three vectors a run stores are the recurrence's next state, when the three it loaded are the
    state after `j` key blocks, the cached buffers the query block's two terms, and the key window block `j`. -/
theorem good_step (x : Cert.Attn.Mat 8192 1024) (b : Fin 8) (j : ℕ) (hj : j < 8)
    (KV p7 p8 p9 : S1024x1024.Idx → EReal) (p5 p6 : S1024x1.Idx → EReal)
    (hKV : mat KV = Cert.Attn.blk x ⟨j, hj⟩) (h8 : mat p8 = Cert.Attn.blk x b)
    (h9 : mat p9 = fun r d => Cert.Attn.blk x b r d - Cert.Attn.blk x b r d)
    (hst : toSt p5 p6 p7 = Cert.Attn.run x b j) :
    toSt (k0_pay2 (F := Ideal) (k0_pay10 (F := Ideal) KV p8 p9 p5)) (k0_pay13 (F := Ideal) KV p8 p9 p5 p5 p6)
        (k0_pay1 (F := Ideal) (k0_pay11 (F := Ideal) KV p8 p9 p5 p5) (k0_pay12 (F := Ideal) KV p8 p9 p5)
          (k0_pay14 (F := Ideal) KV) p7)
      = Cert.Attn.run x b (j + 1) := by
  rw [step_eq KV p8 p9 p7 p5 p6, h8, h9, hKV, hst, Cert.Attn.run_succ x b hj]

/-- The three constants the first key block starts from are the recurrence's initial state. -/
theorem toSt_init : toSt (k0_pay4 (F := Ideal)) (k0_pay5 (F := Ideal)) (k0_pay6 (F := Ideal)) = Cert.Attn.init := by
  rw [pay4_eq, pay5_eq, pay6_eq]
  rfl

variable (m : (ℓ : Loc nD τ sig) → Buf (Elt Ideal) ℓ) (c : Dev nD)

/-- The input array as a matrix. -/
abbrev xOf : Cert.Attn.Mat 8192 1024 := fun n d => m ((c : Thread nD τ).loc main_arg0) (ix2 n d)

theorem lt64 (t : Fin cfg0.N) : t.val < 64 := lt_of_lt_of_eq t.isLt N_0

/-- The query block of a point. -/
abbrev qb (n : ℕ) (hn : n < 64) : Fin 8 := ⟨n / 8, by omega⟩
/-- The key block of a point. -/
abbrev kb (n : ℕ) : Fin 8 := ⟨n % 8, Nat.mod_lt _ (by decide)⟩

/-- What each run stores, one equation per buffer, and the blocks the two input windows hold. -/
structure Pieces : Prop where
  Q_eq : ∀ t : Fin cfg0.N, mat (iblk m c 0 t) = Cert.Attn.blk (xOf m c) (qb t.val (lt64 t))
  KV_eq : ∀ t : Fin cfg0.N, mat (iblk m c 1 t) = Cert.Attn.blk (xOf m c) (kb t.val)
  A8 : ∀ t h0 h1, res_A_8 m c t h0 h1 = k0_pay7 (F := Ideal) (iblk m c 0 t)
  A9 : ∀ t h0 h1, res_A_9 m c t h0 h1 = k0_pay8 (F := Ideal) (iblk m c 0 t)
  A5 : ∀ t h0 h1, res_A_5 m c t h0 h1 = k0_pay2 (F := Ideal) (k0_pay10 (F := Ideal) (iblk m c 1 t)
    (k0_pay7 (F := Ideal) (iblk m c 0 t)) (k0_pay8 (F := Ideal) (iblk m c 0 t)) (k0_pay4 (F := Ideal)))
  A6 : ∀ t h0 h1, res_A_6 m c t h0 h1 = k0_pay13 (F := Ideal) (iblk m c 1 t)
    (k0_pay7 (F := Ideal) (iblk m c 0 t)) (k0_pay8 (F := Ideal) (iblk m c 0 t)) (k0_pay4 (F := Ideal))
    (k0_pay4 (F := Ideal)) (k0_pay5 (F := Ideal))
  A7 : ∀ t h0 h1, res_A_7 m c t h0 h1 = k0_pay1 (F := Ideal)
    (k0_pay11 (F := Ideal) (iblk m c 1 t) (k0_pay7 (F := Ideal) (iblk m c 0 t)) (k0_pay8 (F := Ideal) (iblk m c 0 t))
      (k0_pay4 (F := Ideal)) (k0_pay4 (F := Ideal)))
    (k0_pay12 (F := Ideal) (iblk m c 1 t) (k0_pay7 (F := Ideal) (iblk m c 0 t)) (k0_pay8 (F := Ideal) (iblk m c 0 t))
      (k0_pay4 (F := Ideal)))
    (k0_pay14 (F := Ideal) (iblk m c 1 t)) (k0_pay6 (F := Ideal))
  B5 : ∀ t h0 h1 (p : Scr Ideal), res_B_5 m c t h0 h1 p
    = k0_pay2 (F := Ideal) (k0_pay10 (F := Ideal) (iblk m c 1 t) p.s8 p.s9 p.s5)
  B6 : ∀ t h0 h1 (p : Scr Ideal), res_B_6 m c t h0 h1 p
    = k0_pay13 (F := Ideal) (iblk m c 1 t) p.s8 p.s9 p.s5 p.s5 p.s6
  B7 : ∀ t h0 h1 (p : Scr Ideal), res_B_7 m c t h0 h1 p
    = k0_pay1 (F := Ideal) (k0_pay11 (F := Ideal) (iblk m c 1 t) p.s8 p.s9 p.s5 p.s5)
        (k0_pay12 (F := Ideal) (iblk m c 1 t) p.s8 p.s9 p.s5) (k0_pay14 (F := Ideal) (iblk m c 1 t)) p.s7
  C5 : ∀ t h0 h1 (p : Scr Ideal), res_C_5 m c t h0 h1 p
    = k0_pay2 (F := Ideal) (k0_pay10 (F := Ideal) (iblk m c 1 t) p.s8 p.s9 p.s5)
  C6 : ∀ t h0 h1 (p : Scr Ideal), res_C_6 m c t h0 h1 p
    = k0_pay13 (F := Ideal) (iblk m c 1 t) p.s8 p.s9 p.s5 p.s5 p.s6
  C7 : ∀ t h0 h1 (p : Scr Ideal), res_C_7 m c t h0 h1 p
    = k0_pay1 (F := Ideal) (k0_pay11 (F := Ideal) (iblk m c 1 t) p.s8 p.s9 p.s5 p.s5)
        (k0_pay12 (F := Ideal) (iblk m c 1 t) p.s8 p.s9 p.s5) (k0_pay14 (F := Ideal) (iblk m c 1 t)) p.s7
  C4 : ∀ t h0 h1 (p : Scr Ideal), res_C_4 m c t h0 h1 p
    = k0_pay3 (F := Ideal)
        (k0_pay1 (F := Ideal) (k0_pay11 (F := Ideal) (iblk m c 1 t) p.s8 p.s9 p.s5 p.s5)
          (k0_pay12 (F := Ideal) (iblk m c 1 t) p.s8 p.s9 p.s5) (k0_pay14 (F := Ideal) (iblk m c 1 t)) p.s7)
        (k0_pay13 (F := Ideal) (iblk m c 1 t) p.s8 p.s9 p.s5 p.s5 p.s6)

/-- The state after point `n`, in the recurrence's terms. -/
def Good (n : ℕ) (hn : n < 64) (s : Scr Ideal) : Prop :=
  toSt s.s5 s.s6 s.s7 = Cert.Attn.run (xOf m c) (qb n hn) (n % 8 + 1)
    ∧ mat s.s8 = Cert.Attn.blk (xOf m c) (qb n hn)
    ∧ mat s.s9 = fun r d => Cert.Attn.blk (xOf m c) (qb n hn) r d - Cert.Attn.blk (xOf m c) (qb n hn) r d

variable {m c}

/-! ## The fields of the three runs' states -/

/-- The fields of a state given by its six vectors. -/
theorem mk_o (a : Vec Ideal S1024x1024 .f32) (b b' : Vec Ideal S1024x1 .f32) (d : Vec Ideal S1024x1024 .f32)
    (e e' : Vec Ideal S1024x1024 .bf16) : (Scr.mk a b b' d e e' : Scr Ideal).o = a := rfl
theorem mk_s5 (a : Vec Ideal S1024x1024 .f32) (b b' : Vec Ideal S1024x1 .f32) (d : Vec Ideal S1024x1024 .f32)
    (e e' : Vec Ideal S1024x1024 .bf16) : (Scr.mk a b b' d e e' : Scr Ideal).s5 = b := rfl
theorem mk_s6 (a : Vec Ideal S1024x1024 .f32) (b b' : Vec Ideal S1024x1 .f32) (d : Vec Ideal S1024x1024 .f32)
    (e e' : Vec Ideal S1024x1024 .bf16) : (Scr.mk a b b' d e e' : Scr Ideal).s6 = b' := rfl
theorem mk_s7 (a : Vec Ideal S1024x1024 .f32) (b b' : Vec Ideal S1024x1 .f32) (d : Vec Ideal S1024x1024 .f32)
    (e e' : Vec Ideal S1024x1024 .bf16) : (Scr.mk a b b' d e e' : Scr Ideal).s7 = d := rfl
theorem mk_s8 (a : Vec Ideal S1024x1024 .f32) (b b' : Vec Ideal S1024x1 .f32) (d : Vec Ideal S1024x1024 .f32)
    (e e' : Vec Ideal S1024x1024 .bf16) : (Scr.mk a b b' d e e' : Scr Ideal).s8 = e := rfl
theorem mk_s9 (a : Vec Ideal S1024x1024 .f32) (b b' : Vec Ideal S1024x1 .f32) (d : Vec Ideal S1024x1024 .f32)
    (e e' : Vec Ideal S1024x1024 .bf16) : (Scr.mk a b b' d e e' : Scr Ideal).s9 = e' := rfl

theorem resA_s5 (t : Fin cfg0.N) (h0 : t.val % 8 = 0) (h1 : ¬t.val % 8 = 7) :
    (resA m c t h0 h1).s5 = res_A_5 m c t h0 h1 := by
  unfold resA
  exact mk_s5 _ _ _ _ _ _
theorem resA_s6 (t : Fin cfg0.N) (h0 : t.val % 8 = 0) (h1 : ¬t.val % 8 = 7) :
    (resA m c t h0 h1).s6 = res_A_6 m c t h0 h1 := by
  unfold resA
  exact mk_s6 _ _ _ _ _ _
theorem resA_s7 (t : Fin cfg0.N) (h0 : t.val % 8 = 0) (h1 : ¬t.val % 8 = 7) :
    (resA m c t h0 h1).s7 = res_A_7 m c t h0 h1 := by
  unfold resA
  exact mk_s7 _ _ _ _ _ _
theorem resA_s8 (t : Fin cfg0.N) (h0 : t.val % 8 = 0) (h1 : ¬t.val % 8 = 7) :
    (resA m c t h0 h1).s8 = res_A_8 m c t h0 h1 := by
  unfold resA
  exact mk_s8 _ _ _ _ _ _
theorem resA_s9 (t : Fin cfg0.N) (h0 : t.val % 8 = 0) (h1 : ¬t.val % 8 = 7) :
    (resA m c t h0 h1).s9 = res_A_9 m c t h0 h1 := by
  unfold resA
  exact mk_s9 _ _ _ _ _ _

theorem resB_s5 (t : Fin cfg0.N) (h0 : ¬t.val % 8 = 0) (h1 : ¬t.val % 8 = 7) (p : Scr Ideal) :
    (resB m c t h0 h1 p).s5 = res_B_5 m c t h0 h1 p := by
  unfold resB
  exact mk_s5 _ _ _ _ _ _
theorem resB_s6 (t : Fin cfg0.N) (h0 : ¬t.val % 8 = 0) (h1 : ¬t.val % 8 = 7) (p : Scr Ideal) :
    (resB m c t h0 h1 p).s6 = res_B_6 m c t h0 h1 p := by
  unfold resB
  exact mk_s6 _ _ _ _ _ _
theorem resB_s7 (t : Fin cfg0.N) (h0 : ¬t.val % 8 = 0) (h1 : ¬t.val % 8 = 7) (p : Scr Ideal) :
    (resB m c t h0 h1 p).s7 = res_B_7 m c t h0 h1 p := by
  unfold resB
  exact mk_s7 _ _ _ _ _ _
theorem resB_s8 (t : Fin cfg0.N) (h0 : ¬t.val % 8 = 0) (h1 : ¬t.val % 8 = 7) (p : Scr Ideal) :
    (resB m c t h0 h1 p).s8 = p.s8 := by
  unfold resB
  exact mk_s8 _ _ _ _ _ _
theorem resB_s9 (t : Fin cfg0.N) (h0 : ¬t.val % 8 = 0) (h1 : ¬t.val % 8 = 7) (p : Scr Ideal) :
    (resB m c t h0 h1 p).s9 = p.s9 := by
  unfold resB
  exact mk_s9 _ _ _ _ _ _

theorem resC_o (t : Fin cfg0.N) (h0 : ¬t.val % 8 = 0) (h1 : t.val % 8 = 7) (p : Scr Ideal) :
    (resC m c t h0 h1 p).o = res_C_4 m c t h0 h1 p := by
  unfold resC
  exact mk_o _ _ _ _ _ _
theorem resC_s5 (t : Fin cfg0.N) (h0 : ¬t.val % 8 = 0) (h1 : t.val % 8 = 7) (p : Scr Ideal) :
    (resC m c t h0 h1 p).s5 = res_C_5 m c t h0 h1 p := by
  unfold resC
  exact mk_s5 _ _ _ _ _ _
theorem resC_s6 (t : Fin cfg0.N) (h0 : ¬t.val % 8 = 0) (h1 : t.val % 8 = 7) (p : Scr Ideal) :
    (resC m c t h0 h1 p).s6 = res_C_6 m c t h0 h1 p := by
  unfold resC
  exact mk_s6 _ _ _ _ _ _
theorem resC_s7 (t : Fin cfg0.N) (h0 : ¬t.val % 8 = 0) (h1 : t.val % 8 = 7) (p : Scr Ideal) :
    (resC m c t h0 h1 p).s7 = res_C_7 m c t h0 h1 p := by
  unfold resC
  exact mk_s7 _ _ _ _ _ _
theorem resC_s8 (t : Fin cfg0.N) (h0 : ¬t.val % 8 = 0) (h1 : t.val % 8 = 7) (p : Scr Ideal) :
    (resC m c t h0 h1 p).s8 = p.s8 := by
  unfold resC
  exact mk_s8 _ _ _ _ _ _
theorem resC_s9 (t : Fin cfg0.N) (h0 : ¬t.val % 8 = 0) (h1 : t.val % 8 = 7) (p : Scr Ideal) :
    (resC m c t h0 h1 p).s9 = p.s9 := by
  unfold resC
  exact mk_s9 _ _ _ _ _ _

/-! ## The induction over the grid's points -/

/-- A first key block: the run starts from the three constants, the initial state. -/
theorem good_A (P : Pieces m c) (t : Fin cfg0.N) (h0 : t.val % 8 = 0) (h1 : ¬t.val % 8 = 7) :
    Good m c t.val (lt64 t) (resA m c t h0 h1) := by
  have hQ := P.Q_eq t
  have hKV : mat (iblk m c 1 t) = Cert.Attn.blk (xOf m c) ⟨0, by decide⟩ :=
    (P.KV_eq t).trans (congrArg (Cert.Attn.blk (xOf m c)) (Fin.ext h0))
  have h7 : mat (k0_pay7 (F := Ideal) (iblk m c 0 t)) = Cert.Attn.blk (xOf m c) (qb t.val (lt64 t)) :=
    (congrArg mat (pay7_eq (iblk m c 0 t))).trans hQ
  have h8 : mat (k0_pay8 (F := Ideal) (iblk m c 0 t))
      = fun r d => Cert.Attn.blk (xOf m c) (qb t.val (lt64 t)) r d - Cert.Attn.blk (xOf m c) (qb t.val (lt64 t)) r d :=
    (congrArg mat (pay8_eq (iblk m c 0 t))).trans
      (congrArg (fun M : Cert.Attn.Mat 1024 1024 => fun r d => M r d - M r d) hQ)
  have hrun := good_step (xOf m c) (qb t.val (lt64 t)) 0 (by decide) _ _ _ _ _ _ hKV h7 h8 toSt_init
  unfold Good
  rw [resA_s5, resA_s6, resA_s7, resA_s8, resA_s9, P.A5 t h0 h1, P.A6 t h0 h1, P.A7 t h0 h1, P.A8 t h0 h1,
    P.A9 t h0 h1, h0]
  exact ⟨hrun, h7, h8⟩

/-- A later key block: the three vectors stored over the state the point before left. -/
theorem run_BC (n : ℕ) (hn : n < 64) (h0 : ¬n % 8 = 0) (p : Scr Ideal)
    (hp : Good m c (n - 1) (by omega) p) (KV : S1024x1024.Idx → EReal)
    (hKV : mat KV = Cert.Attn.blk (xOf m c) (kb n)) :
    toSt (k0_pay2 (F := Ideal) (k0_pay10 (F := Ideal) KV p.s8 p.s9 p.s5))
        (k0_pay13 (F := Ideal) KV p.s8 p.s9 p.s5 p.s5 p.s6)
        (k0_pay1 (F := Ideal) (k0_pay11 (F := Ideal) KV p.s8 p.s9 p.s5 p.s5) (k0_pay12 (F := Ideal) KV p.s8 p.s9 p.s5)
          (k0_pay14 (F := Ideal) KV) p.s7)
      = Cert.Attn.run (xOf m c) (qb n hn) (n % 8 + 1) := by
  unfold Good at hp
  obtain ⟨hst, h8, h9⟩ := hp
  have hb : qb (n - 1) (by omega) = qb n hn := Fin.ext (by show (n - 1) / 8 = n / 8; omega)
  have hj : (n - 1) % 8 + 1 = n % 8 := by omega
  rw [hb] at hst h8 h9
  rw [hj] at hst
  exact good_step (xOf m c) (qb n hn) (n % 8) (Nat.mod_lt _ (by decide)) KV p.s7 p.s8 p.s9 p.s5 p.s6 hKV h8 h9 hst

/-- A later key block leaves a good state: the cached buffers are kept. -/
theorem good_BC (n : ℕ) (hn : n < 64) (h0 : ¬n % 8 = 0) (p s : Scr Ideal)
    (hp : Good m c (n - 1) (by omega) p) (KV : S1024x1024.Idx → EReal)
    (hKV : mat KV = Cert.Attn.blk (xOf m c) (kb n))
    (e5 : s.s5 = k0_pay2 (F := Ideal) (k0_pay10 (F := Ideal) KV p.s8 p.s9 p.s5))
    (e6 : s.s6 = k0_pay13 (F := Ideal) KV p.s8 p.s9 p.s5 p.s5 p.s6)
    (e7 : s.s7 = k0_pay1 (F := Ideal) (k0_pay11 (F := Ideal) KV p.s8 p.s9 p.s5 p.s5)
      (k0_pay12 (F := Ideal) KV p.s8 p.s9 p.s5) (k0_pay14 (F := Ideal) KV) p.s7)
    (e8 : s.s8 = p.s8) (e9 : s.s9 = p.s9) : Good m c n hn s := by
  have hrun := run_BC n hn h0 p hp KV hKV
  have hb : qb (n - 1) (by omega) = qb n hn := Fin.ext (by show (n - 1) / 8 = n / 8; omega)
  unfold Good at hp ⊢
  rw [e5, e6, e7, e8, e9, ← hb]
  rw [hb]
  exact ⟨hrun, hb ▸ hp.2.1, hb ▸ hp.2.2⟩

/-- Every point leaves a good state. -/
theorem good_all (P : Pieces m c) :
    ∀ (n : ℕ) (hn : n < cfg0.N), Good m c n (lt_of_lt_of_eq hn N_0) (stAt m c n hn) := by
  intro n
  induction n using Nat.strong_induction_on with
  | _ n ih =>
    intro hn
    by_cases h0 : n % 8 = 0
    · have h1 : ¬n % 8 = 7 := by omega
      have e : stAt m c n hn = resA m c ⟨n, hn⟩ h0 h1 := stAt_A m c ⟨n, hn⟩ h0 h1
      rw [e]
      exact good_A P ⟨n, hn⟩ h0 h1
    · have hn1 : n - 1 < cfg0.N := lt_of_le_of_lt (Nat.sub_le _ _) hn
      have hp := ih (n - 1) (by omega) hn1
      by_cases h1 : n % 8 = 7
      · have e : stAt m c n hn = resC m c ⟨n, hn⟩ h0 h1 (stAt m c (n - 1) hn1) := stAt_C m c ⟨n, hn⟩ h0 h1
        rw [e]
        exact good_BC n _ h0 (stAt m c (n - 1) hn1) _ hp (iblk m c 1 ⟨n, hn⟩) (P.KV_eq ⟨n, hn⟩)
          ((resC_s5 _ h0 h1 _).trans (P.C5 ⟨n, hn⟩ h0 h1 _)) ((resC_s6 _ h0 h1 _).trans (P.C6 ⟨n, hn⟩ h0 h1 _))
          ((resC_s7 _ h0 h1 _).trans (P.C7 ⟨n, hn⟩ h0 h1 _)) (resC_s8 _ h0 h1 _) (resC_s9 _ h0 h1 _)
      · have e : stAt m c n hn = resB m c ⟨n, hn⟩ h0 h1 (stAt m c (n - 1) hn1) := stAt_B m c ⟨n, hn⟩ h0 h1
        rw [e]
        exact good_BC n _ h0 (stAt m c (n - 1) hn1) _ hp (iblk m c 1 ⟨n, hn⟩) (P.KV_eq ⟨n, hn⟩)
          ((resB_s5 _ h0 h1 _).trans (P.B5 ⟨n, hn⟩ h0 h1 _)) ((resB_s6 _ h0 h1 _).trans (P.B6 ⟨n, hn⟩ h0 h1 _))
          ((resB_s7 _ h0 h1 _).trans (P.B7 ⟨n, hn⟩ h0 h1 _)) (resB_s8 _ h0 h1 _) (resB_s9 _ h0 h1 _)

/-- (i) The state after point `t`: the recurrence's state of query block `t / 8` after `t % 8 + 1` key blocks,
    and the query block's two terms. -/
theorem state_eq_of (P : Pieces m c) (t : Fin cfg0.N) :
    toSt (stAt m c t.val t.isLt).s5 (stAt m c t.val t.isLt).s6 (stAt m c t.val t.isLt).s7
        = Cert.Attn.run (xOf m c) (qb t.val (lt64 t)) (t.val % 8 + 1)
      ∧ mat (stAt m c t.val t.isLt).s8 = Cert.Attn.blk (xOf m c) (qb t.val (lt64 t))
      ∧ mat (stAt m c t.val t.isLt).s9
        = fun r d => Cert.Attn.blk (xOf m c) (qb t.val (lt64 t)) r d - Cert.Attn.blk (xOf m c) (qb t.val (lt64 t)) r d := by
  have h := good_all P t.val t.isLt
  unfold Good at h
  exact h

/-- The quotient a last key block stores, over a good state before it. -/
theorem out_C (P : Pieces m c) (hfin : ∀ n d, ∃ y : ℝ, xOf m c n d = (y : EReal)) (t : Fin cfg0.N)
    (h0 : ¬t.val % 8 = 0) (h7 : t.val % 8 = 7) (p : Scr Ideal)
    (hp : Good m c (t.val - 1) (by have := lt64 t; omega) p) (r d : Fin 1024) :
    res_C_4 m c t h0 h7 p (ix2 r d)
      = Cert.Attn.attn (xOf m c) (Cert.Attn.row (qb t.val (lt64 t)) r) d := by
  have hrun := run_BC t.val (lt64 t) h0 p hp (iblk m c 1 t) (P.KV_eq t)
  rw [h7] at hrun
  rw [P.C4 t h0 h7 p]
  refine (pay3_apply _ (k0_pay2 (F := Ideal) (k0_pay10 (F := Ideal) (iblk m c 1 t) p.s8 p.s9 p.s5)) _ r d).trans ?_
  rw [hrun]
  exact Cert.Attn.online_eq_attn (xOf m c) hfin (qb t.val (lt64 t)) r d

/-- (ii) At a last key block the output's buffer holds whole-array attention of the query block's rows. -/
theorem out_eq_of (P : Pieces m c) (hfin : ∀ n d, ∃ y : ℝ, xOf m c n d = (y : EReal)) (t : Fin cfg0.N)
    (h7 : t.val % 8 = 7) (r d : Fin 1024) :
    (stAt m c t.val t.isLt).o (ix2 r d)
      = Cert.Attn.attn (xOf m c) (Cert.Attn.row (qb t.val (lt64 t)) r) d := by
  have h0 : ¬t.val % 8 = 0 := by omega
  have hn1 : t.val - 1 < cfg0.N := lt_of_le_of_lt (Nat.sub_le _ _) t.isLt
  have hp := good_all P (t.val - 1) hn1
  have e : stAt m c t.val t.isLt = resC m c t h0 h7 (stAt m c (t.val - 1) hn1) := stAt_C m c t h0 h7
  rw [e, resC_o]
  exact out_C P hfin t h0 h7 _ hp r d

end Cert.KernelIdeal.FlashValue

end
-- ==== Proof.FlashPieces.lean ====
/-
  The pieces are the payloads. Each buffer a run of the body stores into is covered by the run's last store into
  it, so read back it holds that store's payload, a function of what the run loaded: the two input blocks, and
  either the values the reset has just stored (at a first key block) or the scratch contents the point before
  left (at a later one). For every instance of the float operations.
-/
import proofs.«179613_j78254304133325_2_alg».proof.Proof.FlashOuts
import Idealize.ShloMosaic.Lib.Pipeline.Value

set_option maxRecDepth 16384
set_option synthInstance.maxSize 4096

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The stores' offsets are zero on both axes. -/
theorem hz : (![0, 0] : Fin 2 → Nat) = fun _ => 0 := funext fun a => by fin_cases a <;> rfl

/-- Reading back what a whole scratch buffer was said to hold. -/
theorem rd5 (h : sc5.IsWhole) (X : Vec F S1024x1 .f32) :
    View.read (Elt F) (View.whole cc0_scratch0) (h.unread X) = X := h.read_unread X
theorem rd6 (h : sc6.IsWhole) (X : Vec F S1024x1 .f32) :
    View.read (Elt F) (View.whole cc0_scratch1) (h.unread X) = X := h.read_unread X
theorem rd7 (h : sc7.IsWhole) (X : Vec F S1024x1024 .f32) :
    View.read (Elt F) (View.whole cc0_scratch2) (h.unread X) = X := h.read_unread X
theorem rd8 (h : sc8.IsWhole) (X : Vec F S1024x1024 .bf16) :
    View.read (Elt F) (View.whole cc0_scratch3) (h.unread X) = X := h.read_unread X
theorem rd9 (h : sc9.IsWhole) (X : Vec F S1024x1024 .bf16) :
    View.read (Elt F) (View.whole cc0_scratch4) (h.unread X) = X := h.read_unread X

/-- First key block: the cached first term of the queries' split. -/
theorem res_A_8_eq (c : Dev nD) (t : Fin cfg0.N) (h0 : t.val % 8 = 0) (h1 : ¬t.val % 8 = 7) :
    res_A_8 m c t h0 h1 = k0_pay7 (iblk m c 0 t) := by
  unfold res_A_8
  rw [View.read_writes_eq_canon _ _ _ (cover_A_8 m c t h0 h1)]
  unfold kernelRun_A
  dsimp only
  sl_unfold_words
  rw [View.canon_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz]

/-- First key block: the cached second term of the queries' split. -/
theorem res_A_9_eq (c : Dev nD) (t : Fin cfg0.N) (h0 : t.val % 8 = 0) (h1 : ¬t.val % 8 = 7) :
    res_A_9 m c t h0 h1 = k0_pay8 (iblk m c 0 t) := by
  unfold res_A_9
  rw [View.read_writes_eq_canon _ _ _ (cover_A_9 m c t h0 h1)]
  unfold kernelRun_A
  dsimp only
  sl_unfold_words
  rw [View.canon_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz]

/-- First key block: the new running maximum, over the reset one. -/
theorem res_A_5_eq (c : Dev nD) (t : Fin cfg0.N) (h0 : t.val % 8 = 0) (h1 : ¬t.val % 8 = 7) :
    res_A_5 m c t h0 h1 = k0_pay2 (k0_pay10 (iblk m c 1 t) (k0_pay7 (iblk m c 0 t)) (k0_pay8 (iblk m c 0 t)) k0_pay4) := by
  unfold res_A_5
  rw [View.read_writes_eq_canon _ _ _ (cover_A_5 m c t h0 h1)]
  unfold kernelRun_A
  dsimp only
  sl_unfold_words
  rw [View.canon_cons_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz]

/-- First key block: the new running denominator, over the reset one. -/
theorem res_A_6_eq (c : Dev nD) (t : Fin cfg0.N) (h0 : t.val % 8 = 0) (h1 : ¬t.val % 8 = 7) :
    res_A_6 m c t h0 h1 = k0_pay13 (iblk m c 1 t) (k0_pay7 (iblk m c 0 t)) (k0_pay8 (iblk m c 0 t)) k0_pay4 k0_pay4 k0_pay5 := by
  unfold res_A_6
  rw [View.read_writes_eq_canon _ _ _ (cover_A_6 m c t h0 h1)]
  unfold kernelRun_A
  dsimp only
  sl_unfold_words
  rw [View.canon_cons_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz]

/-- First key block: the new running numerator, over the reset one. -/
theorem res_A_7_eq (c : Dev nD) (t : Fin cfg0.N) (h0 : t.val % 8 = 0) (h1 : ¬t.val % 8 = 7) :
    res_A_7 m c t h0 h1 = k0_pay1 (k0_pay11 (iblk m c 1 t) (k0_pay7 (iblk m c 0 t)) (k0_pay8 (iblk m c 0 t)) k0_pay4 k0_pay4) (k0_pay12 (iblk m c 1 t) (k0_pay7 (iblk m c 0 t)) (k0_pay8 (iblk m c 0 t)) k0_pay4) (k0_pay14 (iblk m c 1 t)) k0_pay6 := by
  unfold res_A_7
  rw [View.read_writes_eq_canon _ _ _ (cover_A_7 m c t h0 h1)]
  unfold kernelRun_A
  dsimp only
  sl_unfold_words
  rw [View.canon_cons_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz]

/-- Middle key block: the new running maximum over the carried state. -/
theorem res_B_5_eq (c : Dev nD) (t : Fin cfg0.N) (h0 : ¬t.val % 8 = 0) (h1 : ¬t.val % 8 = 7) (p : Scr F) :
    res_B_5 m c t h0 h1 p = k0_pay2 (k0_pay10 (iblk m c 1 t) p.s8 p.s9 p.s5) := by
  unfold res_B_5
  rw [View.read_writes_eq_canon _ _ _ (cover_B_5 m c t h0 h1 p)]
  unfold kernelRun_B
  dsimp only
  sl_unfold_words
  rw [View.canon_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Middle key block: the new running denominator over the carried state. -/
theorem res_B_6_eq (c : Dev nD) (t : Fin cfg0.N) (h0 : ¬t.val % 8 = 0) (h1 : ¬t.val % 8 = 7) (p : Scr F) :
    res_B_6 m c t h0 h1 p = k0_pay13 (iblk m c 1 t) p.s8 p.s9 p.s5 p.s5 p.s6 := by
  unfold res_B_6
  rw [View.read_writes_eq_canon _ _ _ (cover_B_6 m c t h0 h1 p)]
  unfold kernelRun_B
  dsimp only
  sl_unfold_words
  rw [View.canon_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Middle key block: the new running numerator over the carried state. -/
theorem res_B_7_eq (c : Dev nD) (t : Fin cfg0.N) (h0 : ¬t.val % 8 = 0) (h1 : ¬t.val % 8 = 7) (p : Scr F) :
    res_B_7 m c t h0 h1 p = k0_pay1 (k0_pay11 (iblk m c 1 t) p.s8 p.s9 p.s5 p.s5) (k0_pay12 (iblk m c 1 t) p.s8 p.s9 p.s5) (k0_pay14 (iblk m c 1 t)) p.s7 := by
  unfold res_B_7
  rw [View.read_writes_eq_canon _ _ _ (cover_B_7 m c t h0 h1 p)]
  unfold kernelRun_B
  dsimp only
  sl_unfold_words
  rw [View.canon_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Last key block: the new running maximum over the carried state. -/
theorem res_C_5_eq (c : Dev nD) (t : Fin cfg0.N) (h0 : ¬t.val % 8 = 0) (h1 : t.val % 8 = 7) (p : Scr F) :
    res_C_5 m c t h0 h1 p = k0_pay2 (k0_pay10 (iblk m c 1 t) p.s8 p.s9 p.s5) := by
  unfold res_C_5
  rw [View.read_writes_eq_canon _ _ _ (cover_C_5 m c t h0 h1 p)]
  unfold kernelRun_C
  dsimp only
  sl_unfold_words
  rw [View.canon_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Last key block: the new running denominator over the carried state. -/
theorem res_C_6_eq (c : Dev nD) (t : Fin cfg0.N) (h0 : ¬t.val % 8 = 0) (h1 : t.val % 8 = 7) (p : Scr F) :
    res_C_6 m c t h0 h1 p = k0_pay13 (iblk m c 1 t) p.s8 p.s9 p.s5 p.s5 p.s6 := by
  unfold res_C_6
  rw [View.read_writes_eq_canon _ _ _ (cover_C_6 m c t h0 h1 p)]
  unfold kernelRun_C
  dsimp only
  sl_unfold_words
  rw [View.canon_unit_zero (S := S1024x1) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Last key block: the new running numerator over the carried state. -/
theorem res_C_7_eq (c : Dev nD) (t : Fin cfg0.N) (h0 : ¬t.val % 8 = 0) (h1 : t.val % 8 = 7) (p : Scr F) :
    res_C_7 m c t h0 h1 p = k0_pay1 (k0_pay11 (iblk m c 1 t) p.s8 p.s9 p.s5 p.s5) (k0_pay12 (iblk m c 1 t) p.s8 p.s9 p.s5) (k0_pay14 (iblk m c 1 t)) p.s7 := by
  unfold res_C_7
  rw [View.read_writes_eq_canon _ _ _ (cover_C_7 m c t h0 h1 p)]
  unfold kernelRun_C
  dsimp only
  sl_unfold_words
  rw [View.canon_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

/-- Last key block: the output block, the new numerator divided by the new denominator. -/
theorem res_C_4_eq (c : Dev nD) (t : Fin cfg0.N) (h0 : ¬t.val % 8 = 0) (h1 : t.val % 8 = 7) (p : Scr F) :
    res_C_4 m c t h0 h1 p = k0_pay3 (k0_pay1 (k0_pay11 (iblk m c 1 t) p.s8 p.s9 p.s5 p.s5) (k0_pay12 (iblk m c 1 t) p.s8 p.s9 p.s5) (k0_pay14 (iblk m c 1 t)) p.s7) (k0_pay13 (iblk m c 1 t) p.s8 p.s9 p.s5 p.s5 p.s6) := by
  unfold res_C_4
  rw [View.read_writes_eq_canon _ _ _ (cover_C_4 m c t h0 h1 p)]
  unfold kernelRun_C
  dsimp only
  sl_unfold_words
  rw [View.canon_unit_zero (S := S1024x1024) hz]
  simp only [View.readCov_unit_zero (S := S1024x1024) _ hz, View.readCov_unit_zero (S := S1024x1) _ hz, View.readAt_eq_ld,
    Memref.IsWhole.read_unread, View.ld_unit_zero (S := S1024x1024) hz, View.ld_unit_zero (S := S1024x1) hz, Memref.view_whole, rd5, rd6, rd7, rd8, rd9]

end Cert.KernelIdeal.Flash

end
-- ==== Proof.FlashValue.lean ====
/-
  The values the attention kernel's grid leaves behind, closed: what each run stores and the blocks the two
  input windows hold are supplied, and the induction over the grid's points gives
  (i) the state after every point, in the blockwise recurrence's terms, and
  (ii) at every last key block, the output's buffer as whole-array attention of the query block's rows.
-/
import proofs.«179613_j78254304133325_2_alg».proof.Proof.FlashValueCore
import proofs.«179613_j78254304133325_2_alg».proof.Proof.FlashPieces
import proofs.«179613_j78254304133325_2_alg».proof.Proof.FlashGeom

set_option maxRecDepth 16384
set_option synthInstance.maxSize 4096

noncomputable section

namespace Cert.KernelIdeal.FlashValue

open Cert.KernelIdeal Cert.KernelIdeal.Gen Cert.KernelIdeal.Flash Cert.PayAttn
open Idealize.ShloMosaic Idealize.ShloMosaic.ValueIdx Idealize.ShloMosaic.TcCoe

variable (m : (ℓ : Loc nD τ sig) → Buf (Elt Ideal) ℓ) (c : Dev nD)

/-- What each run stores and the blocks the two input windows hold. -/
theorem pieces : Pieces m c where
  Q_eq t := funext fun r => funext fun d => iblk0_apply m c t r d
  KV_eq t := funext fun r => funext fun d => iblk1_apply m c t r d
  A8 := res_A_8_eq m c
  A9 := res_A_9_eq m c
  A5 := res_A_5_eq m c
  A6 := res_A_6_eq m c
  A7 := res_A_7_eq m c
  B5 := res_B_5_eq m c
  B6 := res_B_6_eq m c
  B7 := res_B_7_eq m c
  C5 := res_C_5_eq m c
  C6 := res_C_6_eq m c
  C7 := res_C_7_eq m c
  C4 := res_C_4_eq m c

/-- (i) The state after point `t`: the recurrence's state of query block `t / 8` after `t % 8 + 1` key
    blocks, and the query block's two terms. -/
theorem state_eq (t : Fin cfg0.N) :
    toSt (stAt m c t.val t.isLt).s5 (stAt m c t.val t.isLt).s6 (stAt m c t.val t.isLt).s7
        = Cert.Attn.run (xOf m c) (qb t.val (lt64 t)) (t.val % 8 + 1)
      ∧ mat (stAt m c t.val t.isLt).s8 = Cert.Attn.blk (xOf m c) (qb t.val (lt64 t))
      ∧ mat (stAt m c t.val t.isLt).s9
        = fun r d => Cert.Attn.blk (xOf m c) (qb t.val (lt64 t)) r d - Cert.Attn.blk (xOf m c) (qb t.val (lt64 t)) r d :=
  state_eq_of (pieces m c) t

/-- (ii) At a last key block the output's buffer holds whole-array attention of the query block's rows. -/
theorem out_eq (hfin : ∀ n d, ∃ y : ℝ, xOf m c n d = (y : EReal)) (t : Fin cfg0.N) (h7 : t.val % 8 = 7)
    (r d : Fin 1024) :
    (stAt m c t.val t.isLt).o (ix2 r d)
      = Cert.Attn.attn (xOf m c) (Cert.Attn.row (qb t.val (lt64 t)) r) d :=
  out_eq_of (pieces m c) hfin t h7 r d

end Cert.KernelIdeal.FlashValue

end
-- ==== Proof.RefFinite.lean ====
/-
  The precondition says that every entry of the input array has absolute value below +∞; an extended real with
  that property is a real number. So under the precondition every entry of the kernel's input is a real.
-/
import proofs.«179613_j78254304133325_2_alg».proof.Defs
import proofs.«179613_j78254304133325_2_alg».proof.Proof.Gen.Pre_finite_inputs
import Idealize.ShloMosaic.Lib.ReduceAll
import Idealize.ShloMosaic.Lib.ValueIdx
import Idealize.ShloMosaic.PureOps.Ideal.Laws

noncomputable section

namespace Cert.RefAttn

open Idealize.ShloMosaic Idealize.ShloMosaic.TcCoe Idealize.ShloMosaic.ValueIdx Idealize.SL.Sem

/-- The scalar shape has one index. -/
theorem subsingleton_scalar : Subsingleton Cert.Pre_finite_inputs.S_.Idx := ⟨fun _ _ => funext fun d => d.elim0⟩

/-- The word `0x7F800000` read as a binary32 is `+∞`. -/
theorem ofBits_posInf : Ideal.ofBits .f32 0x7F800000#32 = ⊤ := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ y : ℝ, x = (y : EReal) := by
  rw [ofBits_posInf] at h
  induction x using EReal.rec with
  | bot => simp [Ideal.cmp] at h
  | coe r => exact ⟨r, rfl⟩
  | top => simp [Ideal.cmp] at h

/-- Under the precondition every entry of the kernel's input array is a real number. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ y : ℝ, m ((c.tc : Thread Cert.KernelIdeal.nD Cert.KernelIdeal.τ).loc Cert.KernelIdeal.main_arg0) i = (y : EReal) := by
  intro i
  have e := congrFun (h c) ix0
  dsimp only [Cert.Pre_finite_inputs.fn] at e
  haveI := subsingleton_scalar
  exact real_of_abs_lt _ (Host.reduce_andi_all _ _ _ _ _ e i)

end Cert.RefAttn

end
-- ==== Proof.FlashFinal.lean ====
/-
  The idealized kernel's result. After the run the result array holds, at row `n` and column `d`, the
  attention of the argument array `x` against itself: at each last key block the body stores `acc / l` of
  query block `b`, which is the softmax-weighted sum over all 8192 key rows (the blockwise recurrence agrees
  with the whole-array arrangement on matrices of real numbers, and the precondition makes every entry of
  `x` real); the eight write-backs, one per query block, tile the result array.
-/
import proofs.«179613_j78254304133325_2_alg».proof.Proof.FlashLaunch
import proofs.«179613_j78254304133325_2_alg».proof.Proof.FlashGeom
import proofs.«179613_j78254304133325_2_alg».proof.Proof.FlashValue
import proofs.«179613_j78254304133325_2_alg».proof.Proof.RefFinite

set_option maxRecDepth 16384

noncomputable section

namespace Cert.KernelIdeal.FlashValue

open Cert.KernelIdeal Cert.KernelIdeal.Gen Cert.KernelIdeal.Flash
open Idealize.ShloMosaic Idealize.ShloMosaic.TcCoe Idealize.ShloMosaic.ValueIdx Idealize.SL.Sem

variable (m : (ℓ : Loc nD τ sig) → Buf (Elt Ideal) ℓ) (ρ : Dev nD → PrngReg)

/-- The attention of the argument array against itself, as an array. -/
def attnOf (c : Dev nD) : S8192x1024.Idx → EReal :=
  fun i => Cert.Attn.attn (fun n d => m ((c.tc : Thread nD τ).loc main_arg0) (ix2 n d)) (i 0) (i 1)

/-- After the last write-back the result array is the attention of the argument array. -/
theorem final (hpre : Cert.Pre_KernelIdeal m) (c : Dev nD) : (dats m 0 c).arrAt 2 cfg0.N = attnOf m c :=
  arrAt_out_of_entries c (dats m 0 c) (attnOf m c) (fun t h7 r d => by
    rw [after2]
    exact (out_eq m c (fun n d => Cert.RefAttn.finite_of_pre m hpre c (ix2 n d)) t h7 r d).trans rfl)

/-- Every weakly fair execution of the idealized kernel terminates without a fault, the result array at the
    attention of the argument array and the argument array as it was. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v0) = attnOf m c
      ∧ r.2.mem ((c.tc : Thread nD τ).loc main_arg0) = m ((c.tc : Thread nD τ).loc main_arg0)) :=
  (θ_run defs _ _).mono (fun _ h c => ⟨(h c 2).trans (final m hpre c),
    (h c 0).trans (((dats m 0 c).arrAt_in 0 rfl _).trans (A_eq m c 0))⟩) (run_main m ρ)

end Cert.KernelIdeal.FlashValue

end
-- ==== Proof.RefValue.lean ====
/-
  The reference program computes dense softmax self-attention of its input matrix against itself.
  Read one stage at a time at an index: the scores are the row-by-row inner products, the row maximum is
  the fold of `max` from -∞ over the key rows (capped below by -∞ once more), the shifted exponentials are
  summed from zero into the denominator, the quotient gives the weights, and the weights are applied to the
  rows of the input. That is `Cert.Attn.attn` of the input, entry by entry.
-/
import proofs.«179613_j78254304133325_2_alg».proof.Proof.Gen.ReferenceIdeal.Read
import proofs.«179613_j78254304133325_2_alg».proof.Proof.AttnSpec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.RefAttn

open Cert.ReferenceIdeal Cert.ReferenceIdeal.Gen Cert.ReferenceIdeal.Read
open Idealize.ShloMosaic Idealize.ShloMosaic.ValueIdx Idealize.SL.Sem

/-- The input array as a matrix of extended reals: entry `(n, d)`. -/
abbrev mat (X : FVec Ideal S8192x1024 .f32) : Cert.Attn.Mat 8192 1024 := fun n d => X (ix2 n d)

/-! ## The scores -/

/-- The first product at `(n, m)` is the inner product of rows `n` and `m`. -/
theorem score_apply (X : FVec Ideal S8192x1024 .f32) (n m : Fin 8192) :
    val_main_v0 (F := Ideal) X (ix2 n m) = Cert.Attn.score (mat X) n m := by
  rw [val_main_v0_apply]
  unfold Cert.Attn.score
  refine Finset.sum_congr rfl fun k _ => ?_
  have el : lidx_main_v0 (ix2 n m) k = ix2 n k :=
    funext fun a => by match a with | ⟨0, _⟩ => rfl | ⟨1, _⟩ => rfl
  have er : ridx_main_v0 (ix2 n m) k = ix2 m k :=
    funext fun a => by match a with | ⟨0, _⟩ => rfl | ⟨1, _⟩ => rfl
  rw [el, er]

/-! ## The row maximum -/

/-- Dropping the second axis of the score array leaves the row index. -/
theorem reduces_rows : S8192x8192.Reduces [1] S8192 := by decide

/-- Row `n` with column `k` put back is `(n, k)`. -/
theorem lift_row (n : Fin 8192) (k : Fin (S8192x8192.size 1)) :
    reduces_rows.lift (ix1 n) k = ix2 n (⟨k.val, k.isLt⟩ : Fin 8192) := by
  funext c; apply Fin.ext
  fin_cases c <;> rfl

/-- The max-reduce over the key axis, at row `n`: the fold of `max` from -∞ over that row's scores. -/
theorem fold_apply (X : FVec Ideal S8192x1024 .f32) (n : Fin 8192) :
    val_main_v1 (F := Ideal) X (ix1 n)
      = (Finset.univ : Finset (Fin 8192)).fold max ⊥ (fun m => Cert.Attn.score (mat X) n m) := by
  unfold val_main_v1
  rw [Host.reduce_eq_fold_single FloatOps.maximumf _ _ reducesTo_S8192x8192_S8192_d1 reduces_rows h_S_]
  have hi : val_main_cst (F := Ideal) (Shape.Idx.first h_S_) = (⊥ : EReal) :=
    (val_main_cst_apply _).trans ((Ideal.ofBits_def _).trans Cert.Attn.ofBits_negInf)
  have hf : (val_main_v0 (F := Ideal) X ∘ reduces_rows.lift (ix1 n))
      = fun m : Fin 8192 => Cert.Attn.score (mat X) n m :=
    funext fun k => (congrArg (val_main_v0 (F := Ideal) X) (lift_row n k)).trans (score_apply X n _)
  rw [hi]
  exact congrArg (fun f => Finset.fold max (⊥ : EReal) f (Finset.univ : Finset (Fin 8192))) hf

/-- The capped row maximum at row `n`. -/
theorem rowMax_apply (X : FVec Ideal S8192x1024 .f32) (n : Fin 8192) :
    val_main_v3 (F := Ideal) X (ix1 n) = Cert.Attn.rowMax (mat X) n := by
  rw [val_main_v3_apply, val_main_v2_apply, val_main_cst_0_apply, fold_apply, Ideal.ofBits_def,
    Cert.Attn.ofBits_negInf, Ideal.maximumf_def]
  rfl

/-! ## The shifted exponentials, their sum, and the weights -/

/-- The exponential of the shifted score at `(n, m)`. -/
theorem expo_apply (X : FVec Ideal S8192x1024 .f32) (n m : Fin 8192) :
    val_main_v7 (F := Ideal) X (ix2 n m) = Cert.Attn.expo (mat X) n m := by
  have e4 : idx_main_v4 (idx_main_v5 (ix2 n m)) = ix1 n :=
    funext fun a => by match a with | ⟨0, _⟩ => rfl
  rw [val_main_v7_apply, val_main_v6_apply, val_main_v5_apply, val_main_v4_apply, e4, rowMax_apply,
    score_apply, Ideal.hostUnary_exp_def, Ideal.subf_def]
  rfl

/-- The sum of row `n`'s shifted exponentials, from zero. -/
theorem denom_apply (X : FVec Ideal S8192x1024 .f32) (n : Fin 8192) :
    val_main_v8 (F := Ideal) X (ix1 n) = Cert.Attn.denom (mat X) n := by
  rw [val_main_v8_apply, val_main_cst_1_apply, Ideal.ofBits_def, Ideal.ofBits_zero_f32]
  unfold Cert.Attn.denom
  refine congrArg (0 + ·) (Finset.sum_congr rfl fun k _ => ?_)
  have e8 : idx_main_v8 (ix1 n) k = ix2 n k :=
    funext fun a => by match a with | ⟨0, _⟩ => rfl | ⟨1, _⟩ => rfl
  rw [e8, expo_apply]

/-- The softmax weight at `(n, m)`. -/
theorem weight_apply (X : FVec Ideal S8192x1024 .f32) (n m : Fin 8192) :
    val_main_v11 (F := Ideal) X (ix2 n m) = Cert.Attn.weight (mat X) n m := by
  have e9 : idx_main_v9 (idx_main_v10 (ix2 n m)) = ix1 n :=
    funext fun a => by match a with | ⟨0, _⟩ => rfl
  rw [val_main_v11_apply, val_main_v10_apply, val_main_v9_apply, e9, denom_apply, expo_apply,
    Ideal.hostDivf_def]
  rfl

/-! ## The result -/

/-- The reference's result, as a function of its input array, is attention of the input matrix. -/
theorem ref_value (X : FVec Ideal S8192x1024 .f32) :
    val_main_v12 (F := Ideal) X = fun i => Cert.Attn.attn (mat X) (i 0) (i 1) := by
  funext i
  obtain ⟨n, d, rfl⟩ : ∃ (n : Fin 8192) (d : Fin 1024), i = ix2 n d := ⟨i 0, i 1, eq_ix2 i⟩
  rw [val_main_v12_apply]
  show _ = Cert.Attn.attn (mat X) n d
  unfold Cert.Attn.attn
  refine Finset.sum_congr rfl fun k _ => ?_
  have el : lidx_main_v12 (ix2 n d) k = ix2 n k :=
    funext fun a => by match a with | ⟨0, _⟩ => rfl | ⟨1, _⟩ => rfl
  have er : ridx_main_v12 (ix2 n d) k = ix2 k d :=
    funext fun a => by match a with | ⟨0, _⟩ => rfl | ⟨1, _⟩ => rfl
  rw [el, er, weight_apply]

end Cert.RefAttn

end
-- ==== Proof.RefRun.lean ====
/-
  The reference program's run, stated over the specification: every execution ends with the result array
  holding attention of the input matrix, entry by entry, and the input array unchanged. Dropping the result
  gives the statement that the reference runs and keeps its argument.
-/
import proofs.«179613_j78254304133325_2_alg».proof.Defs
import proofs.«179613_j78254304133325_2_alg».proof.Proof.Gen.Pre_finite_inputs
import proofs.«179613_j78254304133325_2_alg».proof.Proof.RefValue

noncomputable section

namespace Cert.RefAttn

open Cert.ReferenceIdeal Cert.ReferenceIdeal.Gen
open Idealize.ShloMosaic Idealize.ShloMosaic.TcCoe Idealize.ShloMosaic.ValueIdx Idealize.SL.Sem

/-- The reference ends with attention of its input matrix in the result array, the input array unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v12)
          = (fun i => Cert.Attn.attn
              (fun n d => m ((c.tc : Thread Cert.ReferenceIdeal.nD Cert.ReferenceIdeal.τ).loc Cert.ReferenceIdeal.main_arg0) (ix2 n d))
              (i 0) (i 1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans ((Cert.ReferenceIdeal.Read.val_main_v12_eq _).trans (ref_value _)), (h c).2⟩)
    (Cert.ReferenceIdeal.Value.run (F := Ideal) m ρ)

/-- The reference runs to the end and leaves its argument as it found it. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

end Cert.RefAttn

end
-- ==== Proof.lean ====
/-
  The kernel is flash attention of one matrix `x` (8192 rows, 1024 columns) against itself: for each block of
  1024 query rows it meets the key rows 1024 at a time, keeping a running maximum `m`, denominator `l` and
  numerator `acc`, rescaling the old `l` and `acc` by `exp (m_old - m_new)`, and stores `acc / l` after the
  last key block. Its scores come from a two-term split of each operand, `q = hi + lo` with `lo = q - hi`;
  over the extended reals a change of float format is the identity, so `hi = q` and `lo = q - q`, which is
  zero exactly when `q` is finite. The reference is `softmax (x xᵀ) x` on whole arrays.

  On matrices of real numbers the two agree: the rescaling is `exp (a - b) * exp (s - a) = exp (s - b)`, the
  first block starts from `exp (-∞) = 0`, and `(∑ e_k v_k) / ∑ e_k = ∑ (e_k / ∑ e) v_k` for a positive sum.
  The precondition (every input finite) is what makes every entry real; the claim needs it for `q - q = 0`,
  for `0 * x = 0`, for distributing the rescaling over the sums and for the quotient.

  The frames: each of the two kernels' programs runs its one region over an 8 × 8 grid; the body's run is the
  same at the word level and over the extended reals (three runs: first, middle, last key block), the five
  scratch buffers carried from point to point. The two input windows read one array, which is dealt to them
  in halves. The two recorded idealization steps are the identity of a narrowing followed by a widening.
-/
import proofs.«179613_j78254304133325_2_alg».proof.Defs
import proofs.«179613_j78254304133325_2_alg».proof.Proof.Gen.Kernel
import proofs.«179613_j78254304133325_2_alg».proof.Proof.Gen.Kernel.Skeleton
import proofs.«179613_j78254304133325_2_alg».proof.Proof.Gen.Kernel.Launch
import proofs.«179613_j78254304133325_2_alg».proof.Proof.Gen.Kernel.Points
import proofs.«179613_j78254304133325_2_alg».proof.Proof.Gen.KernelIdeal
import proofs.«179613_j78254304133325_2_alg».proof.Proof.Gen.KernelIdeal.Skeleton
import proofs.«179613_j78254304133325_2_alg».proof.Proof.Gen.KernelIdeal.Launch
import proofs.«179613_j78254304133325_2_alg».proof.Proof.Gen.KernelIdeal.Points
import proofs.«179613_j78254304133325_2_alg».proof.Proof.Gen.ReferenceIdeal
import proofs.«179613_j78254304133325_2_alg».proof.Proof.Gen.Pre_finite_inputs
import proofs.«179613_j78254304133325_2_alg».proof.Proof.KFlashLaunch
import proofs.«179613_j78254304133325_2_alg».proof.Proof.FlashFinal
import proofs.«179613_j78254304133325_2_alg».proof.Proof.RefRun
import Idealize.ShloMosaic.Adequacy
import Idealize.ShloMosaic.Init

noncomputable section

namespace Cert.Proof

open Idealize.ShloMosaic Idealize.SL.Sem

/-- The word-level kernel runs to the end, faults nowhere and leaves its argument unchanged. -/
theorem frame_k : Cert.frame_Kernel := fun m ρ _ => Cert.Kernel.Flash.frame m ρ

/-- So does the idealized kernel. -/
theorem frame_ki : Cert.frame_KernelIdeal := fun m ρ _ => Cert.KernelIdeal.Flash.frame m ρ

/-- Narrowing to bf16 and widening back is the identity over the extended reals (twice: queries and keys). -/
theorem preserves : Cert.preserves_Kernel_KernelIdeal :=
  ⟨IdealRules.truncf_extf.statement _ .f32 .bf16, IdealRules.truncf_extf.statement _ .f32 .bf16⟩

/-- From memories agreeing on `x`, both programs end with the attention of `x` against itself. -/
theorem algebraic : Cert.algebraic_KernelIdeal_ReferenceIdeal := by
  intro m ρ m' ρ' hpre hagree
  refine ⟨fun c => Cert.KernelIdeal.FlashValue.attnOf m c, Cert.KernelIdeal.FlashValue.kernel_run m ρ hpre, ?_⟩
  refine (θ_run Cert.ReferenceIdeal.defs _ _).mono (fun _ h c => ⟨(h c).1.trans ?_, (h c).2⟩) (Cert.RefAttn.ref_run m' ρ')
  rw [hagree c]
  rfl

theorem claim : Cert.Claim := ⟨Cert.Kernel.Gen.facts, Cert.KernelIdeal.Gen.facts, Cert.ReferenceIdeal.Gen.facts, Cert.Pre_finite_inputs.Gen.facts,
  frame_k, frame_ki, Cert.RefAttn.frame_ri, preserves, algebraic⟩

end Cert.Proof

end
